-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x128 : Shape := ⟨2, ![250000, 128]⟩
abbrev S250000x32 : Shape := ⟨2, ![250000, 32]⟩
abbrev S128x128 : Shape := ⟨2, ![128, 128]⟩
abbrev S128 : Shape := ⟨1, ![128]⟩
abbrev S32x128 : Shape := ⟨2, ![32, 128]⟩
abbrev S_ : Shape := ⟨0, ![]⟩

class Facts : Prop where
  bcast_S_S250000x128 : S_.BroadcastsInDim S250000x128 (![] : Fin 0 → Fin S250000x128.rank)
  reducesTo_S250000x128_S_d0_1 : S250000x128.ReducesTo [0, 1] S_
  h_S_ : 0 < S_.numel
  bcast_S_S250000x32 : S_.BroadcastsInDim S250000x32 (![] : Fin 0 → Fin S250000x32.rank)
  reducesTo_S250000x32_S_d0_1 : S250000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S32x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S32x128 .f32 := Host.absf main_arg9
  let main_cst_16 : FVec F S_ .f32 := constant S_ .f32 0x7F800000#32
  let main_v45 : FVec F S32x128 .f32 := broadcastInDim S32x128 ![] bcast_S_S32x128 main_cst_16
  let main_v46 : IVec S32x128 1 := cmpf .olt main_v44 main_v45
  let main_c_17 : IVec S_ 1 := constantI S_ 1 1#1
  let main_v47 : IVec S_ 1 := (fun x v => Host.reduce IntOp.andi x v reducesTo_S32x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S32x128 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S250000x128 .f32) (main_arg1 : FVec F S250000x128 .f32) (main_arg2 : FVec F S250000x32 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S32x128 .f32) (main_arg10 : FVec F S128 .f32) (main_arg11 : FVec F S128x128 .f32) (main_arg12 : FVec F S128 .f32) : IVec S_ 1 :=
  let main_v0 : FVec F S250000x128 .f32 := Host.absf main_arg0
  let main_cst : FVec F S_ .f32 := constant S_ .f32 0x7F800000#32
  let main_v1 : FVec F S250000x128 .f32 := broadcastInDim S250000x128 ![] bcast_S_S250000x128 main_cst
  let main_v2 : IVec S250000x128 1 := cmpf .olt main_v0 main_v1
  let main_c : IVec S_ 1 := constantI S_ 1 1#1
  let main_v3 : IVec S_ 1 := (fun x v => Host.reduce IntOp.andi x v reducesTo_S250000x128_S_d0_1 h_S_) main_v2 main_c
  let main_v4 : FVec F S250000x128 .f32 := Host.absf main_arg1
  let main_cst_0 : FVec F S_ .f32 := constant S_ .f32 0x7F800000#32
  let main_v5 : FVec F S250000x128 .f32 := broadcastInDim S250000x128 ![] bcast_S_S250000x128 main_cst_0
  let main_v6 : IVec S250000x128 1 := cmpf .olt main_v4 main_v5
  let main_c_1 : IVec S_ 1 := constantI S_ 1 1#1
  let main_v7 : IVec S_ 1 := (fun x v => Host.reduce IntOp.andi x v reducesTo_S250000x128_S_d0_1 h_S_) main_v6 main_c_1
  let main_v8 : IVec S_ 1 := andi main_v3 main_v7
  let main_v9 : FVec F S250000x32 .f32 := Host.absf main_arg2
  let main_cst_2 : FVec F S_ .f32 := constant S_ .f32 0x7F800000#32
  let main_v10 : FVec F S250000x32 .f32 := broadcastInDim S250000x32 ![] bcast_S_S250000x32 main_cst_2
  let main_v11 : IVec S250000x32 1 := cmpf .olt main_v9 main_v10
  let main_c_3 : IVec S_ 1 := constantI S_ 1 1#1
  let main_v12 : IVec S_ 1 := (fun x v => Host.reduce IntOp.andi x v reducesTo_S250000x32_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S250000x128 : Shape := ⟨2, ![250000, 128]⟩
abbrev S250000x32 : Shape := ⟨2, ![250000, 32]⟩
abbrev S128x128 : Shape := ⟨2, ![128, 128]⟩
abbrev S128 : Shape := ⟨1, ![128]⟩
abbrev S32x128 : Shape := ⟨2, ![32, 128]⟩
abbrev S128x8 : Shape := ⟨2, ![128, 8]⟩
abbrev S8x128 : Shape := ⟨2, ![8, 128]⟩
abbrev S1x128 : Shape := ⟨2, ![1, 128]⟩
abbrev S250000x8 : Shape := ⟨2, ![250000, 8]⟩
abbrev S50x1x8 : Shape := ⟨3, ![50, 1, 8]⟩
abbrev S5000x128 : Shape := ⟨2, ![5000, 128]⟩
abbrev S5000x32 : Shape := ⟨2, ![5000, 32]⟩
abbrev S5000x8 : Shape := ⟨2, ![5000, 8]⟩
abbrev S1x1x8 : Shape := ⟨3, ![1, 1, 8]⟩
abbrev S8 : Shape := ⟨1, ![8]⟩
abbrev S1x8 : Shape := ⟨2, ![1, 8]⟩
abbrev S50x8 : Shape := ⟨2, ![50, 8]⟩
abbrev S_ : Shape := ⟨0, ![]⟩
abbrev S10000x128 : Shape := ⟨2, ![10000, 128]⟩
abbrev S10000x8 : Shape := ⟨2, ![10000, 8]⟩

abbrev nBuf : Space → Nat
  | .hbm => 36
  | .vmem => 32
  | .smem => 0
  | _ => 0

abbrev bufTy : (tb : Table) → Fin (tcTables nBuf tb) → BufTy
  | .hbm, ⟨0, _⟩ => ⟨S250000x128, .f32⟩
  | .hbm, ⟨1, _⟩ => ⟨S250000x128, .f32⟩
  | .hbm, ⟨2, _⟩ => ⟨S250000x32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x8, .f32⟩
  | .hbm, ⟨14, _⟩ => ⟨S8x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S250000x8, .f32⟩
  | .hbm, ⟨21, _⟩ => ⟨S50x1x8, .f32⟩
  | .hbm, ⟨22, _⟩ => ⟨S50x1x8, .f32⟩
  | .hbm, ⟨23, _⟩ => ⟨S50x8, .f32⟩
  | .hbm, ⟨24, _⟩ => ⟨S50x8, .f32⟩
  | .hbm, ⟨25, _⟩ => ⟨S_, .f32⟩
  | .hbm, ⟨26, _⟩ => ⟨S8, .f32⟩
  | .hbm, ⟨27, _⟩ => ⟨S1x8, .f32⟩
  | .hbm, ⟨28, _⟩ => ⟨S50x8, .f32⟩
  | .hbm, ⟨29, _⟩ => ⟨S50x8, .f32⟩
  | .hbm, ⟨30, _⟩ => ⟨S50x8, .f32⟩
  | .hbm, ⟨31, _⟩ => ⟨S50x8, .f32⟩
  | .hbm, ⟨32, _⟩ => ⟨S_, .f32⟩
  | .hbm, ⟨33, _⟩ => ⟨S8, .f32⟩
  | .hbm, ⟨34, _⟩ => ⟨S1x8, .f32⟩
  | .hbm, ⟨35, _⟩ => ⟨S250000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x32, .f32⟩
  | .local _ .vmem, ⟨5, _⟩ => ⟨S5000x32, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S32x128, .f32⟩
  | .local _ .vmem, ⟨11, _⟩ => ⟨S1x128, .f32⟩
  | .local _ .vmem, ⟨12, _⟩ => ⟨S128x8, .f32⟩
  | .local _ .vmem, ⟨13, _⟩ => ⟨S5000x8, .f32⟩
  | .local _ .vmem, ⟨14, _⟩ => ⟨S5000x8, .f32⟩
  | .local _ .vmem, ⟨15, _⟩ => ⟨S1x1x8, .f32⟩
  | .local _ .vmem, ⟨16, _⟩ => ⟨S1x1x8, .f32⟩
  | .local _ .vmem, ⟨17, _⟩ => ⟨S1x1x8, .f32⟩
  | .local _ .vmem, ⟨18, _⟩ => ⟨S1x1x8, .f32⟩
  | .local _ .vmem, ⟨19, _⟩ => ⟨S10000x128, .f32⟩
  | .local _ .vmem, ⟨20, _⟩ => ⟨S10000x128, .f32⟩
  | .local _ .vmem, ⟨21, _⟩ => ⟨S10000x8, .f32⟩
  | .local _ .vmem, ⟨22, _⟩ => ⟨S10000x8, .f32⟩
  | .local _ .vmem, ⟨23, _⟩ => ⟨S1x8, .f32⟩
  | .local _ .vmem, ⟨24, _⟩ => ⟨S1x8, .f32⟩
  | .local _ .vmem, ⟨25, _⟩ => ⟨S128x128, .f32⟩
  | .local _ .vmem, ⟨26, _⟩ => ⟨S1x128, .f32⟩
  | .local _ .vmem, ⟨27, _⟩ => ⟨S8x128, .f32⟩
  | .local _ .vmem, ⟨28, _⟩ => ⟨S128x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | _, _ => ⟨S250000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  inb_S128x8_S128x8_0_0 : ∀ a, (![0, 0] : Fin 2 → Nat) a + S128x8.size a ≤ S128x8.size a
  h_S128x8 : 0 < S128x8.numel
  inb_S5000x8_S5000x8_0_0 : ∀ a, (![0, 0] : Fin 2 → Nat) a + S5000x8.size a ≤ S5000x8.size a
  h_S5000x8 : 0 < S5000x8.numel
  reduces_S5000x8_S8 : S5000x8.Reduces [0] S8
  shapeCasts_S8_S1x8 : S8.ShapeCasts S1x8
  broadcasts_S1x8_S5000x8 : S1x8.Broadcasts S5000x8
  shapeCasts_S1x8_S1x1x8 : S1x8.ShapeCasts S1x1x8
  inb_S1x1x8_S1x1x8_0_0_0 : ∀ a, (![0, 0, 0] : Fin 3 → Nat) a + S1x1x8.size a ≤ S1x1x8.size a
  h_S1x1x8 : 0 < S1x1x8.numel
  shapeCasts_S50x1x8_S50x8 : S50x1x8.ShapeCasts S50x8
  reducesTo_S50x8_S8_d0 : S50x8.ReducesTo [0] S8
  h_S_ : 0 < S_.numel
  bcast_S8_S1x8_1 : S8.BroadcastsInDim S1x8 (![1] : Fin 1 → Fin S1x8.rank)
  bcast_S1x8_S50x8_0_1 : S1x8.BroadcastsInDim S50x8 (![0, 1] : Fin 2 → Fin S50x8.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  broadcasts_S1x128_S10000x128 : S1x128.Broadcasts S10000x128
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S8x128_S8x128_0_0 : ∀ a, (![0, 0] : Fin 2 → Nat) a + S8x128.size a ≤ S8x128.size a
  h_S8x128 : 0 < S8x128.numel
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  dot_S5000x128_S128x8_S5000x8_1_0_0_1_n_n_wf : DotDims.WF S5000x128 S128x8 S5000x8 [1] [0] [0] [1] [] []
  dot_S10000x128_S128x128_S10000x128_1_0_0_1_n_n_wf : DotDims.WF S10000x128 S128x128 S10000x128 [1] [0] [0] [1] [] []
  dot_S10000x8_S8x128_S10000x128_1_0_0_1_n_n_wf : DotDims.WF S10000x8 S8x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S250000x128.size a
  hwx0_0 : ∀ i : grid0.Coords, EltTy.bits .f32 = 32 ∨ (Rect.block (s := S250000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S250000x128.size a
  hwx0_1 : ∀ i : grid0.Coords, EltTy.bits .f32 = 32 ∨ (Rect.block (s := S250000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S250000x32.size a
  hwx0_2 : ∀ i : grid0.Coords, EltTy.bits .f32 = 32 ∨ (Rect.block (s := S250000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x8.size a ≤ S128x8.size a
  hwx0_9 : ∀ i : grid0.Coords, EltTy.bits .f32 = 32 ∨ (Rect.block (s := S128x8) S128x8.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x8.size a ≤ S250000x8.size a
  hwx0_10 : ∀ i : grid0.Coords, EltTy.bits .f32 = 32 ∨ (Rect.block (s := S250000x8) S5000x8.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x8.size a ≤ S50x1x8.size a
  hwx0_11 : ∀ i : grid0.Coords, EltTy.bits .f32 = 32 ∨ (Rect.block (s := S50x1x8) S1x1x8.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x8.size a ≤ S50x1x8.size a
  hwx0_12 : ∀ i : grid0.Coords, EltTy.bits .f32 = 32 ∨ (Rect.block (s := S50x1x8) S1x1x8.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S250000x128.size a
  hwx1_0 : ∀ i : grid1.Coords, EltTy.bits .f32 = 32 ∨ (Rect.block (s := S250000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x8.size a ≤ S250000x8.size a
  hwx1_1 : ∀ i : grid1.Coords, EltTy.bits .f32 = 32 ∨ (Rect.block (s := S250000x8) S10000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x128.size a ≤ S250000x128.size a
  hwx1_9 : ∀ i : grid1.Coords, EltTy.bits .f32 = 32 ∨ (Rect.block (s := S250000x128) S10000x128.size (cc1_transform_9 i) (hinb1_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x8_S8x128_S10000x128_1_0_0_1_n_n : DotDims S10000x8 S8x128 S10000x128 where
  lhsContracting := [1]
  rhsContracting := [0]
  lhsNonContracting := [0]
  rhsNonContracting := [1]
  lhsBatch := []
  rhsBatch := []
  wf := dot_S10000x8_S8x128_S10000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_cst) S128x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S5000x8.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S1x1x8.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_2) S1x1x8.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S10000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_cst_0) S8x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16) S10000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S250000x128 : Shape := ⟨2, ![250000, 128]⟩
abbrev S250000x32 : Shape := ⟨2, ![250000, 32]⟩
abbrev S128x128 : Shape := ⟨2, ![128, 128]⟩
abbrev S128 : Shape := ⟨1, ![128]⟩
abbrev S32x128 : Shape := ⟨2, ![32, 128]⟩
abbrev S1x128 : Shape := ⟨2, ![1, 128]⟩
abbrev S250000x8x16 : Shape := ⟨3, ![250000, 8, 16]⟩
abbrev S_ : Shape := ⟨0, ![]⟩
abbrev S250000x8 : Shape := ⟨2, ![250000, 8]⟩
abbrev S8 : Shape := ⟨1, ![8]⟩
abbrev S1x8 : Shape := ⟨2, ![1, 8]⟩
abbrev S250000x8x1 : Shape := ⟨3, ![250000, 8, 1]⟩

abbrev nBuf : Space → Nat
  | .hbm => 62
  | .vmem => 0
  | .smem => 0
  | _ => 0

abbrev bufTy : (tb : Table) → Fin (tcTables nBuf tb) → BufTy
  | .hbm, ⟨0, _⟩ => ⟨S250000x128, .f32⟩
  | .hbm, ⟨1, _⟩ => ⟨S250000x128, .f32⟩
  | .hbm, ⟨2, _⟩ => ⟨S250000x32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S250000x128, .f32⟩
  | .hbm, ⟨14, _⟩ => ⟨S1x128, .f32⟩
  | .hbm, ⟨15, _⟩ => ⟨S250000x128, .f32⟩
  | .hbm, ⟨16, _⟩ => ⟨S250000x128, .f32⟩
  | .hbm, ⟨17, _⟩ => ⟨S250000x8x16, .f32⟩
  | .hbm, ⟨18, _⟩ => ⟨S250000x128, .f32⟩
  | .hbm, ⟨19, _⟩ => ⟨S1x128, .f32⟩
  | .hbm, ⟨20, _⟩ => ⟨S250000x128, .f32⟩
  | .hbm, ⟨21, _⟩ => ⟨S250000x128, .f32⟩
  | .hbm, ⟨22, _⟩ => ⟨S250000x8x16, .f32⟩
  | .hbm, ⟨23, _⟩ => ⟨S250000x128, .f32⟩
  | .hbm, ⟨24, _⟩ => ⟨S1x128, .f32⟩
  | .hbm, ⟨25, _⟩ => ⟨S250000x128, .f32⟩
  | .hbm, ⟨26, _⟩ => ⟨S250000x128, .f32⟩
  | .hbm, ⟨27, _⟩ => ⟨S250000x8x16, .f32⟩
  | .hbm, ⟨28, _⟩ => ⟨S250000x128, .f32⟩
  | .hbm, ⟨29, _⟩ => ⟨S1x128, .f32⟩
  | .hbm, ⟨30, _⟩ => ⟨S250000x128, .f32⟩
  | .hbm, ⟨31, _⟩ => ⟨S250000x128, .f32⟩
  | .hbm, ⟨32, _⟩ => ⟨S250000x8x16, .f32⟩
  | .hbm, ⟨33, _⟩ => ⟨S250000x8x16, .f32⟩
  | .hbm, ⟨34, _⟩ => ⟨S250000x8x16, .f32⟩
  | .hbm, ⟨35, _⟩ => ⟨S_, .f32⟩
  | .hbm, ⟨36, _⟩ => ⟨S250000x8, .f32⟩
  | .hbm, ⟨37, _⟩ => ⟨S_, .f32⟩
  | .hbm, ⟨38, _⟩ => ⟨S250000x8, .f32⟩
  | .hbm, ⟨39, _⟩ => ⟨S250000x8, .f32⟩
  | .hbm, ⟨40, _⟩ => ⟨S_, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S1x8, .f32⟩
  | .hbm, ⟨46, _⟩ => ⟨S250000x8, .f32⟩
  | .hbm, ⟨47, _⟩ => ⟨S250000x8, .f32⟩
  | .hbm, ⟨48, _⟩ => ⟨S250000x8, .f32⟩
  | .hbm, ⟨49, _⟩ => ⟨S_, .f32⟩
  | .hbm, ⟨50, _⟩ => ⟨S8, .f32⟩
  | .hbm, ⟨51, _⟩ => ⟨S1x8, .f32⟩
  | .hbm, ⟨52, _⟩ => ⟨S250000x8, .f32⟩
  | .hbm, ⟨53, _⟩ => ⟨S250000x8, .f32⟩
  | .hbm, ⟨54, _⟩ => ⟨S250000x8x1, .f32⟩
  | .hbm, ⟨55, _⟩ => ⟨S250000x8x16, .f32⟩
  | .hbm, ⟨56, _⟩ => ⟨S250000x8x16, .f32⟩
  | .hbm, ⟨57, _⟩ => ⟨S250000x128, .f32⟩
  | .hbm, ⟨58, _⟩ => ⟨S250000x128, .f32⟩
  | .hbm, ⟨59, _⟩ => ⟨S1x128, .f32⟩
  | .hbm, ⟨60, _⟩ => ⟨S250000x128, .f32⟩
  | .hbm, ⟨61, _⟩ => ⟨S250000x128, .f32⟩
  | _, _ => ⟨S250000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S250000x128_0_1 : S1x128.BroadcastsInDim S250000x128 (![0, 1] : Fin 2 → Fin S250000x128.rank)
  shapeCasts_S250000x128_S250000x8x16 : S250000x128.ShapeCasts S250000x8x16
  reducesTo_S250000x8x16_S250000x8_d2 : S250000x8x16.ReducesTo [2] S250000x8
  h_S_ : 0 < S_.numel
  bcast_S_S250000x8 : S_.BroadcastsInDim S250000x8 (![] : Fin 0 → Fin S250000x8.rank)
  reducesTo_S250000x8_S8_d0 : S250000x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S250000x8_0_1 : S1x8.BroadcastsInDim S250000x8 (![0, 1] : Fin 2 → Fin S250000x8.rank)
  bcast_S250000x8_S250000x8x1_0_1 : S250000x8.BroadcastsInDim S250000x8x1 (![0, 1] : Fin 2 → Fin S250000x8x1.rank)
  bcast_S250000x8x1_S250000x8x16_0_1_2 : S250000x8x1.BroadcastsInDim S250000x8x16 (![0, 1, 2] : Fin 3 → Fin S250000x8x16.rank)
  shapeCasts_S250000x8x16_S250000x128 : S250000x8x16.ShapeCasts S250000x128
  dot_S250000x128_S128x128_S250000x128_1_0_0_1_n_n_wf : DotDims.WF S250000x128 S128x128 S250000x128 [1] [0] [0] [1] [] []
  dot_S250000x32_S32x128_S250000x128_1_0_0_1_n_n_wf : DotDims.WF S250000x32 S32x128 S250000x128 [1] [0] [0] [1] [] []

variable [Facts₀]

def dot_S250000x128_S128x128_S250000x128_1_0_0_1_n_n : DotDims S250000x128 S128x128 S250000x128 where
  lhsContracting := [1]
  rhsContracting := [0]
  lhsNonContracting := [0]
  rhsNonContracting := [1]
  lhsBatch := []
  rhsBatch := []
  wf := dot_S250000x128_S128x128_S250000x128_1_0_0_1_n_n_wf
def dot_S250000x32_S32x128_S250000x128_1_0_0_1_n_n : DotDims S250000x32 S32x128 S250000x128 where
  lhsContracting := [1]
  rhsContracting := [0]
  lhsNonContracting := [0]
  rhsNonContracting := [1]
  lhsBatch := []
  rhsBatch := []
  wf := dot_S250000x32_S32x128_S250000x128_1_0_0_1_n_n_wf

class Facts : Prop extends Facts₀ where

variable [Facts]
-- ==== Proof.KRun.lean ====
/-
  The idealized kernel's whole run, with its result array named.

  The program is two kernel regions between stretches of host operations.  Its run ends, on every device, with
  every buffer at the last boundary's contents: the fold of the host stretches and of the two regions' write-backs
  from the launch memory.  Read at the result buffer that is the second region's output array; read at an argument
  it is the launch memory.
-/
import proofs.«154555_j28295244546584_2_alg».proof.Defs
import proofs.«154555_j28295244546584_2_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument as launched. -/
theorem run_result : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.Hand

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibRowCast.lean ====
/-
  A vector recast as a one-row matrix, read at an entry.

  Recasting a vector of `n` entries to the shape `[1, n]` moves no entry: the one row's entry `k` is the
  vector's entry `k` (both sit at row-major position `k`).  Any length, any element type.
-/
import Idealize.ShloMosaic.Lib.ValueIdx
import Idealize.ShloMosaic.Lib.Pipeline.Value

noncomputable section

namespace Cert.Lib.RowCast

open Idealize.ShloMosaic Idealize.ShloMosaic.ValueIdx

/-- An `[n]` array cast to `[1, n]` reads, at `(0, k)`, the operand at `k`. -/
theorem shapeCast_n_1n_apply {α : Type} {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_one, Shape.rowMajor_val_two]
    show k.val = 0 * n + k.val
    omega)

end Cert.Lib.RowCast

end
-- ==== Proof.Pay.lean ====
/-
  The kernels' arithmetic read at one entry, at the ideal instance.

  Each matrix product into the zero accumulator is the sum over the contracted axis of products; a bias row
  [1, b] broadcast down the rows reads the row's entry at the column; a reduction over the rows of a block reads,
  at a column, the sum (or the fold of max from minus infinity) over the rows; recasting [8] as [1, 8] as
  [1, 1, 8] moves no entry.  With these the four stored values of the two kernels are read entry by entry.
-/
import proofs.«154555_j28295244546584_2_alg».proof.Proof.Gen.KernelIdeal.Skeleton
import proofs.«154555_j28295244546584_2_alg».proof.Proof.LibSplitContraction
import proofs.«154555_j28295244546584_2_alg».proof.Proof.LibRowCast
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen
open Idealize.ShloMosaic Idealize.ShloMosaic.ValueIdx

/-- The matrix product [5000, 128] × [128, 128] into the zero accumulator, at entry (r, c): the row against the column. -/
theorem mmA {φ₁ φ₂ : FTy} (a : FVec Ideal S5000x128 φ₁) (b : FVec Ideal S128x128 φ₂) (r : Fin 5000) (c : Fin 128) :
    matmul dot_S5000x128_S128x128_S5000x128_1_0_0_1_n_n none a b (constant S5000x128 .f32 0x00000000#32) (ix2 r c) = ∑ k : Fin 128, a (ix2 r k) * b (ix2 k c) :=
  Cert.Lib.SplitContraction.matmul_zero_at dot_S5000x128_S128x128_S5000x128_1_0_0_1_n_n rfl rfl
    (fun j q => by
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl)
    (fun j q => dot_S5000x128_S128x128_S5000x128_1_0_0_1_n_n.lhsIdx_val_of_single rfl j q)
    (fun j q => dot_S5000x128_S128x128_S5000x128_1_0_0_1_n_n.rhsIdx_val_of_single rfl j q)
    (fun j q => by
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
    none a b r c

/-- The matrix product [5000, 32] × [32, 128] into the zero accumulator, at entry (r, c): the row against the column. -/
theorem mmB {φ₁ φ₂ : FTy} (a : FVec Ideal S5000x32 φ₁) (b : FVec Ideal S32x128 φ₂) (r : Fin 5000) (c : Fin 128) :
    matmul dot_S5000x32_S32x128_S5000x128_1_0_0_1_n_n none a b (constant S5000x128 .f32 0x00000000#32) (ix2 r c) = ∑ k : Fin 32, a (ix2 r k) * b (ix2 k c) :=
  Cert.Lib.SplitContraction.matmul_zero_at dot_S5000x32_S32x128_S5000x128_1_0_0_1_n_n rfl rfl
    (fun j q => by
      unfold DotDims.lhsIdx
      rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
      rfl)
    (fun j q => dot_S5000x32_S32x128_S5000x128_1_0_0_1_n_n.lhsIdx_val_of_single rfl j q)
    (fun j q => dot_S5000x32_S32x128_S5000x128_1_0_0_1_n_n.rhsIdx_val_of_single rfl j q)
    (fun j q => by
      unfold DotDims.rhsIdx
      rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
      rfl)
    none a b r c

/-- The matrix product [5000, 128] × [128, 8] into the zero accumulator, at entry (r, c): the row against the column. -/
theorem mmC {φ₁ φ₂ : FTy} (a : FVec Ideal S5000x128 φ₁) (b : FVec Ideal S128x8 φ₂) (r : Fin 5000) (c : Fin 8) :
    matmul dot_S5000x128_S128x8_S5000x8_1_0_0_1_n_n none a b (constant S5000x8 .f32 0x00000000#32) (ix2 r c) = ∑ k : Fin 128, a (ix2 r k) * b (ix2 k c) :=
  Cert.Lib.SplitContraction.matmul_zero_at dot_S5000x128_S128x8_S5000x8_1_0_0_1_n_n rfl rfl
    (fun j q => by
      unfold DotDims.lhsIdx
      rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
      rfl)
    (fun j q => dot_S5000x128_S128x8_S5000x8_1_0_0_1_n_n.lhsIdx_val_of_single rfl j q)
    (fun j q => dot_S5000x128_S128x8_S5000x8_1_0_0_1_n_n.rhsIdx_val_of_single rfl j q)
    (fun j q => by
      unfold DotDims.rhsIdx
      rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
      rfl)
    none a b r c

/-- The matrix product [10000, 128] × [128, 128] into the zero accumulator, at entry (r, c): the row against the column. -/
theorem mmD {φ₁ φ₂ : FTy} (a : FVec Ideal S10000x128 φ₁) (b : FVec Ideal S128x128 φ₂) (r : Fin 10000) (c : Fin 128) :
    matmul dot_S10000x128_S128x128_S10000x128_1_0_0_1_n_n none a b (constant S10000x128 .f32 0x00000000#32) (ix2 r c) = ∑ k : Fin 128, a (ix2 r k) * b (ix2 k c) :=
  Cert.Lib.SplitContraction.matmul_zero_at dot_S10000x128_S128x128_S10000x128_1_0_0_1_n_n rfl rfl
    (fun j q => by
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl)
    (fun j q => dot_S10000x128_S128x128_S10000x128_1_0_0_1_n_n.lhsIdx_val_of_single rfl j q)
    (fun j q => dot_S10000x128_S128x128_S10000x128_1_0_0_1_n_n.rhsIdx_val_of_single rfl j q)
    (fun j q => by
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl)
    none a b r c

/-- The matrix product [10000, 8] × [8, 128] into the zero accumulator, at entry (r, c): the row against the column. -/
theorem mmE {φ₁ φ₂ : FTy} (a : FVec Ideal S10000x8 φ₁) (b : FVec Ideal S8x128 φ₂) (r : Fin 10000) (c : Fin 128) :
    matmul dot_S10000x8_S8x128_S10000x128_1_0_0_1_n_n none a b (constant S10000x128 .f32 0x00000000#32) (ix2 r c) = ∑ k : Fin 8, a (ix2 r k) * b (ix2 k c) :=
  Cert.Lib.SplitContraction.matmul_zero_at dot_S10000x8_S8x128_S10000x128_1_0_0_1_n_n rfl rfl
    (fun j q => by
      unfold DotDims.lhsIdx
      rw [dif_neg (show ¬(0 : Fin S10000x8.rank) ∈ dot_S10000x8_S8x128_S10000x128_1_0_0_1_n_n.lhsBatch by decide), dif_pos (show (0 : Fin S10000x8.rank) ∈ dot_S10000x8_S8x128_S10000x128_1_0_0_1_n_n.lhsNonContracting by decide)]
      rfl)
    (fun j q => dot_S10000x8_S8x128_S10000x128_1_0_0_1_n_n.lhsIdx_val_of_single rfl j q)
    (fun j q => dot_S10000x8_S8x128_S10000x128_1_0_0_1_n_n.rhsIdx_val_of_single rfl j q)
    (fun j q => by
      unfold DotDims.rhsIdx
      rw [dif_neg (show ¬(1 : Fin S8x128.rank) ∈ dot_S10000x8_S8x128_S10000x128_1_0_0_1_n_n.rhsBatch by decide), dif_pos (show (1 : Fin S8x128.rank) ∈ dot_S10000x8_S8x128_S10000x128_1_0_0_1_n_n.rhsNonContracting by decide)]
      rfl)
    none a b r c

/-- A row [1, b] broadcast down n rows reads, at (r, c), the row's entry c. -/
theorem row_bcast {α : Type} {n b : ℕ} (v : (⟨2, ![1, b]⟩ : Shape).Idx → α) (h : (⟨2, ![1, b]⟩ : Shape).Broadcasts ⟨2, ![n, b]⟩)
    (r : Fin n) (c : Fin b) : broadcastTo ⟨2, ![n, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- The index of column p with row k put back is (k, p). -/
theorem lift_col {a b : ℕ} (h : (⟨2, ![a, b]⟩ : Shape).Reduces [0] (⟨1, ![b]⟩ : Shape)) (p : Fin b)
    (k : Fin ((⟨2, ![a, b]⟩ : Shape).size 0)) : h.lift (ix1 p) k = ix2 (⟨k.val, k.isLt⟩ : Fin a) p := by
  funext c; apply Fin.ext
  match c with
  | ⟨0, _⟩ => rfl
  | ⟨1, _⟩ => rfl

/-- The sum over the rows, from the zero word, at column p: the sum of the column's entries. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (p : Fin b) :
    multiReduction .add [0] ⟨1, ![b]⟩ src 0x00000000#32 h hφ hacc (ix1 p) = ∑ k : Fin a, src (ix2 k p) := by
  refine (Ideal.multiReduction_add_single src 0x00000000#32 h hφ hacc (ix1 p)).trans ?_
  exact Finset.sum_congr rfl fun k _ => congrArg src (lift_col h p k)

/-- The maximum over the rows, from the word of minus infinity, at column p: the fold of max over the column's entries. -/
theorem colMax_at {a b : ℕ} (src : FVec Ideal ⟨2, ![a, b]⟩ .f32)
    (h : (⟨2, ![a, b]⟩ : Shape).Reduces [0] (⟨1, ![b]⟩ : Shape)) (hφ : FKind.Formats .f32)
    (hacc : (0xFF800000#32 : BitVec 32) = 0xFF800000#32) (p : Fin b) :
    multiReduction .maximumf [0] ⟨1, ![b]⟩ src 0xFF800000#32 h hφ hacc (ix1 p)
      = (Finset.univ : Finset (Fin a)).fold max (Ideal.ofBits .f32 0xFF800000#32) (fun k => src (ix2 k p)) := by
  refine (Ideal.multiReduction_maximumf_single src 0xFF800000#32 h hφ hacc (ix1 p)).trans ?_
  have hf : (src ∘ h.lift (ix1 p)) = fun k : Fin a => src (ix2 k p) := funext fun k => congrArg src (lift_col h p k)
  exact congrArg (fun f => Finset.fold max (Ideal.ofBits .f32 0xFF800000#32) f (Finset.univ : Finset (Fin a))) hf

/-- The exponential of a vector at an index is the exponential of the entry. -/
theorem exp_at {s : Shape} (v : FVec Ideal s .f32) (i : s.Idx) : exp v i = Ideal.exp (v i) := rfl

/-- A row [1, n] recast as [1, 1, n] reads, at (0, 0, k), the row's entry k. -/
theorem cast_1n_11n {α : Type} {n : ℕ} (x : (⟨2, ![1, n]⟩ : Shape).Idx → α)
    (h : (⟨2, ![1, n]⟩ : Shape).ShapeCasts ⟨3, ![1, 1, n]⟩) (k : Fin n) :
    shapeCast ⟨3, ![1, 1, n]⟩ x h (ix3 (0 : Fin 1) (0 : Fin 1) k) = x (ix2 (0 : Fin 1) k) :=
  shapeCast_apply x h _ _ (by
    rw [Shape.rowMajor_val_two, Shape.rowMajor_val_three]
    show 0 * n + k.val = (0 * 1 + 0) * n + k.val
    omega)

/-! ## The stored values, entry by entry -/

/-- The scores kernel's stored scores at (r, h): the 128 channel terms Q·(K + edge bias) of row r against the
    selector's column h, times the quarter word. -/
theorem pay3_at (x0 : Vec Ideal S5000x128 .f32) (x1 : Vec Ideal S128x128 .f32) (x3 : Vec Ideal S1x128 .f32) (x7 : Vec Ideal S5000x128 .f32)
    (x8 : Vec Ideal S128x128 .f32) (x10 : Vec Ideal S1x128 .f32) (x14 : Vec Ideal S5000x32 .f32) (x15 : Vec Ideal S32x128 .f32)
    (x17 : Vec Ideal S1x128 .f32) (x23 : Vec Ideal S128x8 .f32) (r : Fin 5000) (h : Fin 8) :
    k0_pay3 (F := Ideal) x0 x1 x3 x7 x8 x10 x14 x15 x17 x23 (ix2 r h)
      = (∑ c : Fin 128, (((∑ j : Fin 128, x0 (ix2 r j) * x1 (ix2 j c)) + x3 (ix2 (0 : Fin 1) c))
            * (((∑ j : Fin 128, x7 (ix2 r j) * x8 (ix2 j c)) + x10 (ix2 (0 : Fin 1) c))
                + ((∑ j : Fin 32, x14 (ix2 r j) * x15 (ix2 j c)) + x17 (ix2 (0 : Fin 1) c))))
          * x23 (ix2 c h)) * Ideal.ofBits .f32 0x3E800000#32 := by
  unfold k0_pay3
  simp only [mulf_apply, addf_apply, broadcast_apply, mmA, mmB, mmC, shapeCast_self, row_bcast]
  rfl

/-- The block maximum the scores kernel keeps, at head h: the fold of max from minus infinity over the block's rows. -/
theorem pay4_at (x0 : Vec Ideal S5000x128 .f32) (x1 : Vec Ideal S128x128 .f32) (x3 : Vec Ideal S1x128 .f32) (x7 : Vec Ideal S5000x128 .f32)
    (x8 : Vec Ideal S128x128 .f32) (x10 : Vec Ideal S1x128 .f32) (x14 : Vec Ideal S5000x32 .f32) (x15 : Vec Ideal S32x128 .f32)
    (x17 : Vec Ideal S1x128 .f32) (x23 : Vec Ideal S128x8 .f32) (h : Fin 8) :
    k0_pay4 (F := Ideal) x0 x1 x3 x7 x8 x10 x14 x15 x17 x23 (ix2 (0 : Fin 1) h)
      = (Finset.univ : Finset (Fin 5000)).fold max (Ideal.ofBits .f32 0xFF800000#32)
          (fun r => k0_pay3 (F := Ideal) x0 x1 x3 x7 x8 x10 x14 x15 x17 x23 (ix2 r h)) := by
  unfold k0_pay4
  generalize k0_pay3 (F := Ideal) x0 x1 x3 x7 x8 x10 x14 x15 x17 x23 = s
  refine (Cert.Lib.RowCast.shapeCast_n_1n_apply _ _ h).trans ?_
  exact colMax_at s _ _ _ h

/-- The stored block maximum, recast [1, 1, 8], at head h. -/
theorem pay1_at (v29 : FVec Ideal S1x8 .f32) (h : Fin 8) :
    k0_pay1 (F := Ideal) v29 (ix3 (0 : Fin 1) (0 : Fin 1) h) = v29 (ix2 (0 : Fin 1) h) := by
  unfold k0_pay1
  exact cast_1n_11n v29 _ h

/-- The stored block sum at head h: the exponentials of the block's scores less the block maximum, summed over the rows. -/
theorem pay2_at (v26 : FVec Ideal S5000x8 .f32) (v29 : FVec Ideal S1x8 .f32) (h : Fin 8) :
    k0_pay2 (F := Ideal) v26 v29 (ix3 (0 : Fin 1) (0 : Fin 1) h)
      = ∑ r : Fin 5000, Ideal.exp (v26 (ix2 r h) - v29 (ix2 (0 : Fin 1) h)) := by
  unfold k0_pay2
  refine (cast_1n_11n _ _ h).trans ?_
  refine (Cert.Lib.RowCast.shapeCast_n_1n_apply _ _ h).trans ?_
  refine (colSum_at _ _ _ _ h).trans ?_
  refine Finset.sum_congr rfl fun r _ => ?_
  show Ideal.exp (v26 (ix2 r h) - broadcastTo S5000x8 v29 _ (ix2 r h)) = _
  rw [row_bcast]

/-- The output kernel's stored block at (r, c): the head weights exp(score - max) / sum spread over the channels by the
    transposed selector, times V's row, through the last dense layer. -/
theorem pay_out_at (v0 : Vec Ideal S10000x128 .f32) (v2 : Vec Ideal S128x128 .f32) (v5 : Vec Ideal S1x128 .f32) (v9 : Vec Ideal S10000x8 .f32)
    (v11 : Vec Ideal S1x8 .f32) (v16 : Vec Ideal S1x8 .f32) (v20 : Vec Ideal S8x128 .f32) (v24 : Vec Ideal S128x128 .f32)
    (v27 : Vec Ideal S1x128 .f32) (r : Fin 10000) (c : Fin 128) :
    k1_pay1 (F := Ideal) v0 v2 v5 v9 v11 v16 v20 v24 v27 (ix2 r c)
      = (∑ k : Fin 128, ((∑ h : Fin 8, Ideal.div (Ideal.exp (v9 (ix2 r h) - v11 (ix2 (0 : Fin 1) h))) (v16 (ix2 (0 : Fin 1) h)) * v20 (ix2 h k))
            * ((∑ j : Fin 128, v0 (ix2 r j) * v2 (ix2 j k)) + v5 (ix2 (0 : Fin 1) k))) * v24 (ix2 k c))
          + v27 (ix2 (0 : Fin 1) c) := by
  unfold k1_pay1
  simp only [mulf_apply, addf_apply, subf_apply, divf_apply, truncf_apply, exp_at, mmD, mmE, shapeCast_self, row_bcast]

end Cert.KernelIdeal.Pay

end
-- ==== Proof.Spec.lean ====
/-
  The mathematics both programs compute, written once, entry by entry, on the extended reals.

  A graph attention layer over E = 250000 edges, 8 heads of width 16.  From the edge features three dense
  layers give Q, K, V (rows of 128) and a fourth gives the edge bias; the score of edge e at head h is the sum over
  the head's 16 channels of Q·(K + bias), scaled by 1/4; the scores are normalised by a softmax taken over ALL
  edges, head by head; each head's weight multiplies its 16 channels of V, and a last dense layer is applied.

  Two spellings are stated.  The reference's: the channel sum over the head's own 16 channels, a division by 4, one
  maximum and one sum over all edges.  The kernel's: the channel sum as a product with a 0/1 selector matrix and a
  multiplication by 1/4; a maximum and a sum of exponentials per block of 5000 edges, merged over the 50 blocks by
  the rescaling exp(blockmax - max); the head weight spread over its channels by the transposed selector.
-/
import Idealize.ShloMosaic.PureOps.Ideal.Laws
import Idealize.ShloMosaic.Lib.ValueIdx

noncomputable section

namespace Cert.Attn

open Idealize.ShloMosaic Idealize.ShloMosaic.ValueIdx

/-- A matrix of extended reals. -/
abbrev Mat (n k : ℕ) : Type := (⟨⟨2, ![n, k]⟩, .f32⟩ : BufTy).Contents (Elt Ideal)
/-- A vector of extended reals. -/
abbrev Vect (n : ℕ) : Type := (⟨⟨1, ![n]⟩, .f32⟩ : BufTy).Contents (Elt Ideal)

/-- The thirteen inputs: the edge features, and the weights and biases of the five dense layers. -/
structure Args where
  xi : Mat 250000 128
  xj : Mat 250000 128
  ea : Mat 250000 32
  wq : Mat 128 128
  bq : Vect 128
  wk : Mat 128 128
  bk : Vect 128
  wv : Mat 128 128
  bv : Vect 128
  we : Mat 32 128
  be : Vect 128
  wo : Mat 128 128
  bo : Vect 128

/-- Channel d of head h. -/
def chan (h : Fin 8) (d : Fin 16) : Fin 128 := ⟨16 * h.val + d.val, by have := h.isLt; have := d.isLt; omega⟩
/-- The head of a channel. -/
def headOf (k : Fin 128) : Fin 8 := ⟨k.val / 16, by have := k.isLt; omega⟩
/-- Edge r of block b (blocks of 5000 edges). -/
def edge (b : Fin 50) (r : Fin 5000) : Fin 250000 := ⟨5000 * b.val + r.val, by have := b.isLt; have := r.isLt; omega⟩

/-- One entry of a dense layer: the row of x against the column of w, plus the bias. -/
def dense {n K : ℕ} (x : Mat n K) (w : Mat K 128) (b : Vect 128) (e : Fin n) (c : Fin 128) : EReal :=
  (∑ j : Fin K, x (ix2 e j) * w (ix2 j c)) + b (ix1 c)

def Q (A : Args) (e : Fin 250000) (c : Fin 128) : EReal := dense A.xi A.wq A.bq e c
def K (A : Args) (e : Fin 250000) (c : Fin 128) : EReal := dense A.xj A.wk A.bk e c
def V (A : Args) (e : Fin 250000) (c : Fin 128) : EReal := dense A.xj A.wv A.bv e c
def B (A : Args) (e : Fin 250000) (c : Fin 128) : EReal := dense A.ea A.we A.be e c
/-- Channel c's term of the score: Q·(K + edge bias). -/
def qk (A : Args) (e : Fin 250000) (c : Fin 128) : EReal := Q A e c * (K A e c + B A e c)

/-- The word of minus infinity, of zero, of four, of a quarter. -/
def negInf : EReal := Ideal.ofBits .f32 0xFF800000#32
def zeroW : EReal := Ideal.ofBits .f32 0x00000000#32
def fourW : EReal := Ideal.ofBits .f32 0x40800000#32
def quarterW : EReal := Ideal.ofBits .f32 0x3E800000#32

/-- The reference's score: the head's 16 channel terms summed from zero, divided by 4. -/
def scoreR (A : Args) (e : Fin 250000) (h : Fin 8) : EReal :=
  Ideal.div (zeroW + ∑ d : Fin 16, qk A e (chan h d)) fourW
/-- The kernel's score: all 128 channel terms against the selector's column h, times 1/4. -/
def scoreK (A : Args) (sel : Mat 128 8) (e : Fin 250000) (h : Fin 8) : EReal :=
  (∑ c : Fin 128, qk A e c * sel (ix2 c h)) * quarterW

/-! ## The softmax over all edges, for any scores s -/

/-- The reference's maximum over all edges, from minus infinity (and once more against minus infinity). -/
def maxR (s : Fin 250000 → Fin 8 → EReal) (h : Fin 8) : EReal :=
  max negInf ((Finset.univ : Finset (Fin 250000)).fold max negInf fun e => s e h)
def expR (s : Fin 250000 → Fin 8 → EReal) (e : Fin 250000) (h : Fin 8) : EReal := Ideal.exp (s e h - maxR s h)
def sumR (s : Fin 250000 → Fin 8 → EReal) (h : Fin 8) : EReal := zeroW + ∑ e : Fin 250000, expR s e h
/-- The reference's attention weight. -/
def attR (s : Fin 250000 → Fin 8 → EReal) (e : Fin 250000) (h : Fin 8) : EReal := Ideal.div (expR s e h) (sumR s h)

/-- The kernel's maximum of block b. -/
def bmax (s : Fin 250000 → Fin 8 → EReal) (b : Fin 50) (h : Fin 8) : EReal :=
  (Finset.univ : Finset (Fin 5000)).fold max negInf fun r => s (edge b r) h
/-- The kernel's sum of exponentials of block b, against the block's own maximum. -/
def bsum (s : Fin 250000 → Fin 8 → EReal) (b : Fin 50) (h : Fin 8) : EReal :=
  ∑ r : Fin 5000, Ideal.exp (s (edge b r) h - bmax s b h)
/-- The maximum of the block maxima. -/
def gmax (s : Fin 250000 → Fin 8 → EReal) (h : Fin 8) : EReal :=
  (Finset.univ : Finset (Fin 50)).fold max negInf fun b => bmax s b h
/-- The block sums, each rescaled to the overall maximum, summed from zero. -/
def gsum (s : Fin 250000 → Fin 8 → EReal) (h : Fin 8) : EReal :=
  zeroW + ∑ b : Fin 50, bsum s b h * Ideal.exp (bmax s b h - gmax s h)
/-- The kernel's attention weight. -/
def attK (s : Fin 250000 → Fin 8 → EReal) (e : Fin 250000) (h : Fin 8) : EReal :=
  Ideal.div (Ideal.exp (s e h - gmax s h)) (gsum s h)

/-! ## The layer's output -/

/-- The reference's output entry: each channel's head weight times V, through the last dense layer. -/
def outR (A : Args) (e : Fin 250000) (c : Fin 128) : EReal :=
  (∑ k : Fin 128, (attR (scoreR A) e (headOf k) * V A e k) * A.wo (ix2 k c)) + A.bo (ix1 c)
/-- The kernel's output entry: the head weights spread over the channels by the transposed selector. -/
def outK (A : Args) (sel : Mat 128 8) (selT : Mat 8 128) (e : Fin 250000) (c : Fin 128) : EReal :=
  (∑ k : Fin 128, ((∑ h : Fin 8, attK (scoreK A sel) e h * selT (ix2 h k)) * V A e k) * A.wo (ix2 k c)) + A.bo (ix1 c)

/-- Every entry of an array is a real number. -/
def IsReal {ι : Type} (f : ι → EReal) : Prop := ∀ i, ∃ r : ℝ, f i = (r : EReal)

/-- Every input is finite. -/
structure Args.Finite (A : Args) : Prop where
  xi : IsReal A.xi
  xj : IsReal A.xj
  ea : IsReal A.ea
  wq : IsReal A.wq
  bq : IsReal A.bq
  wk : IsReal A.wk
  bk : IsReal A.bk
  wv : IsReal A.wv
  bv : IsReal A.bv
  we : IsReal A.we
  be : IsReal A.be
  wo : IsReal A.wo
  bo : IsReal A.bo

/-- The selector: 1 where channel c belongs to head h, else 0. -/
def IsSel (sel : Mat 128 8) : Prop := ∀ (c : Fin 128) (h : Fin 8), sel (ix2 c h) = if c.val / 16 = h.val then 1 else 0
/-- The transposed selector. -/
def IsSelT (selT : Mat 8 128) : Prop := ∀ (h : Fin 8) (k : Fin 128), selT (ix2 h k) = if k.val / 16 = h.val then 1 else 0

end Cert.Attn

end
-- ==== Proof.Reg0.lean ====
/-
  What the scores kernel leaves in its three output arrays.

  The grid has 50 points; point t reads rows 5000·t … 5000·t + 4999 of the edge features (the weights, biases and
  the selector whole) and writes back block t of the scores [250000, 8] and row t of the two per-block statistics
  [50, 1, 8].  Entry by entry the stored block is the kernel's score of the edge 5000·t + r at head h, the block's
  maximum of those scores, and the block's sum of exponentials against that maximum; the blocks tile the arrays.
-/
import proofs.«154555_j28295244546584_2_alg».proof.Proof.Gen.KernelIdeal.Frame
import proofs.«154555_j28295244546584_2_alg».proof.Proof.Pay
import proofs.«154555_j28295244546584_2_alg».proof.Proof.Spec
import Idealize.ShloMosaic.Lib.Pipeline.Value

set_option maxRecDepth 16384

noncomputable section

namespace Cert.KernelIdeal.Reg0

open Cert.KernelIdeal Cert.KernelIdeal.Gen
open Idealize.ShloMosaic Idealize.ShloMosaic.ValueIdx Idealize.ShloMosaic.TcCoe Idealize.SL.Sem
open Idealize.ShloMosaic.Pipeline (Dat)
open Cert.Attn (Args Mat Vect)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- What the region finds in its operands' arrays, in the specification's terms: the edge features, the three dense
    layers of the score path with their biases as rows [1, 128], and the selector. -/
structure Entry (c : Dev nD) (A : Args) (sel : Mat 128 8) : Prop where
  xi : (V c main_arg0 : S250000x128.Idx → EReal) = A.xi
  xj : (V c main_arg1 : S250000x128.Idx → EReal) = A.xj
  ea : (V c main_arg2 : S250000x32.Idx → EReal) = A.ea
  wq : (V c main_arg3 : S128x128.Idx → EReal) = A.wq
  bq : ∀ k : Fin 128, (V c main_v0 : S1x128.Idx → EReal) (ix2 (0 : Fin 1) k) = A.bq (ix1 k)
  wk : (V c main_arg5 : S128x128.Idx → EReal) = A.wk
  bk : ∀ k : Fin 128, (V c main_v1 : S1x128.Idx → EReal) (ix2 (0 : Fin 1) k) = A.bk (ix1 k)
  we : (V c main_arg9 : S32x128.Idx → EReal) = A.we
  be : ∀ k : Fin 128, (V c main_v3 : S1x128.Idx → EReal) (ix2 (0 : Fin 1) k) = A.be (ix1 k)
  sel : (V c main_cst : S128x8.Idx → EReal) = sel

/-- The printed index maps over the grid: the row-blocked windows sit at block (t, 0), the whole ones at (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 3) = t.val ∧ win0_11.index t (1 : Fin 3) = 0 ∧ win0_11.index t (2 : Fin 3) = 0
    ∧ win0_12.index t (0 : Fin 3) = t.val ∧ win0_12.index t (1 : Fin 3) = 0 ∧ win0_12.index t (2 : Fin 3) = 0 :=
  (by decide +kernel : ∀ t : Fin grid0.N, _)

theorem N50 : cfg0.N = 50 := N_0

/-- Window 0's block at point t is rows 5000·t … of its array. -/
theorem blk_0 (c : Dev nD) (t : Fin cfg0.N) (r : Fin 5000) (j : Fin 128) (e : Fin 250000) (he : e.val = t.val * 5000 + r.val) :
    (iblk0 V c 0 t : S5000x128.Idx → EReal) (ix2 r j) = (V c main_arg0 : S250000x128.Idx → EReal) (ix2 e j) := by
  have hi := idx t
  unfold iblk0
  rw [View.read_apply]
  show (V c main_arg0 : S250000x128.Idx → EReal) _ = (V c main_arg0 : S250000x128.Idx → EReal) _
  refine congrArg (V c main_arg0 : S250000x128.Idx → EReal) (funext fun a => Fin.ext ?_)
  match a with
  | ⟨0, _⟩ => show win0_0.index t (0 : Fin 2) * 5000 + 1 * r.val = e.val; omega
  | ⟨1, _⟩ => show win0_0.index t (1 : Fin 2) * 128 + 1 * j.val = j.val; omega

/-- Window 1's block at point t is rows 5000·t … of its array. -/
theorem blk_1 (c : Dev nD) (t : Fin cfg0.N) (r : Fin 5000) (j : Fin 128) (e : Fin 250000) (he : e.val = t.val * 5000 + r.val) :
    (iblk0 V c 1 t : S5000x128.Idx → EReal) (ix2 r j) = (V c main_arg1 : S250000x128.Idx → EReal) (ix2 e j) := by
  have hi := idx t
  unfold iblk0
  rw [View.read_apply]
  show (V c main_arg1 : S250000x128.Idx → EReal) _ = (V c main_arg1 : S250000x128.Idx → EReal) _
  refine congrArg (V c main_arg1 : S250000x128.Idx → EReal) (funext fun a => Fin.ext ?_)
  match a with
  | ⟨0, _⟩ => show win0_1.index t (0 : Fin 2) * 5000 + 1 * r.val = e.val; omega
  | ⟨1, _⟩ => show win0_1.index t (1 : Fin 2) * 128 + 1 * j.val = j.val; omega

/-- Window 2's block at point t is rows 5000·t … of its array. -/
theorem blk_2 (c : Dev nD) (t : Fin cfg0.N) (r : Fin 5000) (j : Fin 32) (e : Fin 250000) (he : e.val = t.val * 5000 + r.val) :
    (iblk0 V c 2 t : S5000x32.Idx → EReal) (ix2 r j) = (V c main_arg2 : S250000x32.Idx → EReal) (ix2 e j) := by
  have hi := idx t
  unfold iblk0
  rw [View.read_apply]
  show (V c main_arg2 : S250000x32.Idx → EReal) _ = (V c main_arg2 : S250000x32.Idx → EReal) _
  refine congrArg (V c main_arg2 : S250000x32.Idx → EReal) (funext fun a => Fin.ext ?_)
  match a with
  | ⟨0, _⟩ => show win0_2.index t (0 : Fin 2) * 5000 + 1 * r.val = e.val; omega
  | ⟨1, _⟩ => show win0_2.index t (1 : Fin 2) * 32 + 1 * j.val = j.val; omega

/-- Window 3's block at every point is its whole array. -/
theorem blk_3 (c : Dev nD) (t : Fin cfg0.N) (y : S128x128.Idx) :
    (iblk0 V c 3 t : S128x128.Idx → EReal) y = (V c main_arg3 : S128x128.Idx → EReal) y := by
  have hi := idx t
  unfold iblk0
  rw [View.read_apply]
  show (V c main_arg3 : S128x128.Idx → EReal) _ = (V c main_arg3 : S128x128.Idx → EReal) _
  refine congrArg (V c main_arg3 : S128x128.Idx → EReal) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block at every point is its whole array. -/
theorem blk_4 (c : Dev nD) (t : Fin cfg0.N) (y : S1x128.Idx) :
    (iblk0 V c 4 t : S1x128.Idx → EReal) y = (V c main_v0 : S1x128.Idx → EReal) y := by
  have hi := idx t
  unfold iblk0
  rw [View.read_apply]
  show (V c main_v0 : S1x128.Idx → EReal) _ = (V c main_v0 : S1x128.Idx → EReal) _
  refine congrArg (V c main_v0 : S1x128.Idx → EReal) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block at every point is its whole array. -/
theorem blk_5 (c : Dev nD) (t : Fin cfg0.N) (y : S128x128.Idx) :
    (iblk0 V c 5 t : S128x128.Idx → EReal) y = (V c main_arg5 : S128x128.Idx → EReal) y := by
  have hi := idx t
  unfold iblk0
  rw [View.read_apply]
  show (V c main_arg5 : S128x128.Idx → EReal) _ = (V c main_arg5 : S128x128.Idx → EReal) _
  refine congrArg (V c main_arg5 : S128x128.Idx → EReal) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block at every point is its whole array. -/
theorem blk_6 (c : Dev nD) (t : Fin cfg0.N) (y : S1x128.Idx) :
    (iblk0 V c 6 t : S1x128.Idx → EReal) y = (V c main_v1 : S1x128.Idx → EReal) y := by
  have hi := idx t
  unfold iblk0
  rw [View.read_apply]
  show (V c main_v1 : S1x128.Idx → EReal) _ = (V c main_v1 : S1x128.Idx → EReal) _
  refine congrArg (V c main_v1 : S1x128.Idx → EReal) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block at every point is its whole array. -/
theorem blk_7 (c : Dev nD) (t : Fin cfg0.N) (y : S32x128.Idx) :
    (iblk0 V c 7 t : S32x128.Idx → EReal) y = (V c main_arg9 : S32x128.Idx → EReal) y := by
  have hi := idx t
  unfold iblk0
  rw [View.read_apply]
  show (V c main_arg9 : S32x128.Idx → EReal) _ = (V c main_arg9 : S32x128.Idx → EReal) _
  refine congrArg (V c main_arg9 : S32x128.Idx → EReal) (funext fun a => Fin.ext ?_)
  match a with
  | ⟨0, _⟩ => show win0_7.index t (0 : Fin 2) * 32 + 1 * (y 0).val = (y 0).val; omega
  | ⟨1, _⟩ => show win0_7.index t (1 : Fin 2) * 128 + 1 * (y 1).val = (y 1).val; omega

/-- Window 8's block at every point is its whole array. -/
theorem blk_8 (c : Dev nD) (t : Fin cfg0.N) (y : S1x128.Idx) :
    (iblk0 V c 8 t : S1x128.Idx → EReal) y = (V c main_v3 : S1x128.Idx → EReal) y := by
  have hi := idx t
  unfold iblk0
  rw [View.read_apply]
  show (V c main_v3 : S1x128.Idx → EReal) _ = (V c main_v3 : S1x128.Idx → EReal) _
  refine congrArg (V c main_v3 : S1x128.Idx → EReal) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's block at every point is its whole array. -/
theorem blk_9 (c : Dev nD) (t : Fin cfg0.N) (y : S128x8.Idx) :
    (iblk0 V c 9 t : S128x8.Idx → EReal) y = (V c main_cst : S128x8.Idx → EReal) y := by
  have hi := idx t
  unfold iblk0
  rw [View.read_apply]
  show (V c main_cst : S128x8.Idx → EReal) _ = (V c main_cst : S128x8.Idx → EReal) _
  refine congrArg (V c main_cst : S128x8.Idx → EReal) (funext fun a => Fin.ext ?_)
  match a with
  | ⟨0, _⟩ => show win0_9.index t (0 : Fin 2) * 128 + 1 * (y 0).val = (y 0).val; omega
  | ⟨1, _⟩ => show win0_9.index t (1 : Fin 2) * 8 + 1 * (y 1).val = (y 1).val; omega

/-- The scores as an array. -/
def G10 (A : Args) (sel : Mat 128 8) : S250000x8.Idx → EReal :=
  fun i => Cert.Attn.scoreK A sel ⟨(i 0).val, (i 0).isLt⟩ ⟨(i 1).val, (i 1).isLt⟩
/-- The block maxima as an array. -/
def G11 (A : Args) (sel : Mat 128 8) : S50x1x8.Idx → EReal :=
  fun i => Cert.Attn.bmax (Cert.Attn.scoreK A sel) ⟨(i 0).val, (i 0).isLt⟩ ⟨(i 2).val, (i 2).isLt⟩
/-- The block sums as an array. -/
def G12 (A : Args) (sel : Mat 128 8) : S50x1x8.Idx → EReal :=
  fun i => Cert.Attn.bsum (Cert.Attn.scoreK A sel) ⟨(i 0).val, (i 0).isLt⟩ ⟨(i 2).val, (i 2).isLt⟩

/-- The stored score of row r of block t at head h is the kernel's score of edge 5000·t + r. -/
theorem score_at (c : Dev nD) (A : Args) (sel : Mat 128 8) (hE : Entry V c A sel) (t : Fin cfg0.N) (r : Fin 5000) (h : Fin 8)
    (e : Fin 250000) (he : e.val = t.val * 5000 + r.val) :
    k0_pay3 (F := Ideal) (iblk0 V c 0 t) (iblk0 V c 3 t) (iblk0 V c 4 t) (iblk0 V c 1 t) (iblk0 V c 5 t) (iblk0 V c 6 t)
        (iblk0 V c 2 t) (iblk0 V c 7 t) (iblk0 V c 8 t) (iblk0 V c 9 t) (ix2 r h)
      = Cert.Attn.scoreK A sel e h := by
  refine (Pay.pay3_at _ _ _ _ _ _ _ _ _ _ r h).trans ?_
  simp only [blk_0 V c t r _ e he, blk_1 V c t r _ e he, blk_2 V c t r _ e he, blk_3 V c t, blk_4 V c t, blk_5 V c t, blk_6 V c t,
    blk_7 V c t, blk_8 V c t, blk_9 V c t, hE.xi, hE.xj, hE.ea, hE.wq, hE.bq, hE.wk, hE.bk, hE.we, hE.be, hE.sel]
  rfl

theorem tlt (t : Fin cfg0.N) : t.val < 50 := lt_of_lt_of_eq t.isLt N50

theorem G10_at (A : Args) (sel : Mat 128 8) (i : S250000x8.Idx) (e : Fin 250000) (h : Fin 8) (h0 : (i 0).val = e.val) (h1 : (i 1).val = h.val) :
    G10 A sel i = Cert.Attn.scoreK A sel e h := by
  unfold G10; exact congrArg₂ (Cert.Attn.scoreK A sel) (Fin.ext h0) (Fin.ext h1)
theorem G11_at (A : Args) (sel : Mat 128 8) (i : S50x1x8.Idx) (b : Fin 50) (h : Fin 8) (h0 : (i 0).val = b.val) (h2 : (i 2).val = h.val) :
    G11 A sel i = Cert.Attn.bmax (Cert.Attn.scoreK A sel) b h := by
  unfold G11; exact congrArg₂ (Cert.Attn.bmax (Cert.Attn.scoreK A sel)) (Fin.ext h0) (Fin.ext h2)
theorem G12_at (A : Args) (sel : Mat 128 8) (i : S50x1x8.Idx) (b : Fin 50) (h : Fin 8) (h0 : (i 0).val = b.val) (h2 : (i 2).val = h.val) :
    G12 A sel i = Cert.Attn.bsum (Cert.Attn.scoreK A sel) b h := by
  unfold G12; exact congrArg₂ (Cert.Attn.bsum (Cert.Attn.scoreK A sel)) (Fin.ext h0) (Fin.ext h2)

/-- The kept block maximum of block t at head h. -/
theorem bmax_at (c : Dev nD) (A : Args) (sel : Mat 128 8) (hE : Entry V c A sel) (t : Fin cfg0.N) (h : Fin 8) (b : Fin 50) (hb : b.val = t.val) :
    k0_pay4 (F := Ideal) (iblk0 V c 0 t) (iblk0 V c 3 t) (iblk0 V c 4 t) (iblk0 V c 1 t) (iblk0 V c 5 t) (iblk0 V c 6 t) (iblk0 V c 2 t) (iblk0 V c 7 t) (iblk0 V c 8 t) (iblk0 V c 9 t) (ix2 (0 : Fin 1) h) = Cert.Attn.bmax (Cert.Attn.scoreK A sel) b h := by
  refine (Pay.pay4_at _ _ _ _ _ _ _ _ _ _ h).trans ?_
  unfold Cert.Attn.bmax
  refine congrArg (fun f => Finset.fold max (Ideal.ofBits .f32 0xFF800000#32) f (Finset.univ : Finset (Fin 5000))) (funext fun r => ?_)
  exact score_at V c A sel hE t r h (Cert.Attn.edge b r) (by show 5000 * b.val + r.val = t.val * 5000 + r.val; omega)

/-- What point t writes back to the scores: block t of the scores array. -/
theorem flushed10 (c : Dev nD) (A : Args) (sel : Mat 128 8) (hE : Entry V c A sel) (t : Fin cfg0.N) :
    (dat0 V c).flushed 10 t = ((cfg0.win 10).blk t).view.read (Elt Ideal) (G10 A sel) := by
  show (cfg0.win 10).cut (grid0.coords t) ((dat0 V c).after 10 t) = _
  rw [after0_10]
  unfold out0_10
  rw [View.canon_unit_zero hz2]
  simp only [View.ld_unit_zero (S := S5000x128) hz2, View.ld_unit_zero (S := S128x128) hz2, View.ld_unit_zero (S := S1x128) hz2, View.ld_unit_zero (S := S5000x32) hz2, View.ld_unit_zero (S := S32x128) hz2, View.ld_unit_zero (S := S128x8) hz2]
  funext j
  have hi := idx t
  have ht := tlt t
  obtain ⟨r, h, rfl⟩ : ∃ (r : Fin 5000) (h : Fin 8), j = ix2 r h := ⟨j 0, j 1, eq_ix2 j⟩
  have hlt : t.val * 5000 + r.val < 250000 := by have := r.isLt; omega
  refine (score_at V c A sel hE t r h ⟨t.val * 5000 + r.val, hlt⟩ rfl).trans ?_
  show _ = G10 A sel (((cfg0.win 10).blk t).view.emb (ix2 r h))
  refine (G10_at A sel _ _ h ?_ ?_).symm
  · show win0_10.index t (0 : Fin 2) * 5000 + 1 * r.val = t.val * 5000 + r.val; omega
  · show win0_10.index t (1 : Fin 2) * 8 + 1 * h.val = h.val; omega

/-- What point t writes back to the block maxima: row t. -/
theorem flushed11 (c : Dev nD) (A : Args) (sel : Mat 128 8) (hE : Entry V c A sel) (t : Fin cfg0.N) :
    (dat0 V c).flushed 11 t = ((cfg0.win 11).blk t).view.read (Elt Ideal) (G11 A sel) := by
  show (cfg0.win 11).cut (grid0.coords t) ((dat0 V c).after 11 t) = _
  rw [after0_11]
  unfold out0_11
  rw [View.canon_unit_zero hz3]
  simp only [View.ld_unit_zero (S := S5000x128) hz2, View.ld_unit_zero (S := S128x128) hz2, View.ld_unit_zero (S := S1x128) hz2, View.ld_unit_zero (S := S5000x32) hz2, View.ld_unit_zero (S := S32x128) hz2, View.ld_unit_zero (S := S128x8) hz2]
  funext j
  have hi := idx t
  have ht := tlt t
  obtain ⟨a, b, h, rfl⟩ : ∃ (a b : Fin 1) (h : Fin 8), j = ix3 a b h := ⟨j 0, j 1, j 2, eq_ix3 j⟩
  obtain rfl : a = 0 := Subsingleton.elim _ _
  obtain rfl : b = 0 := Subsingleton.elim _ _
  refine (Pay.pay1_at _ h).trans ?_
  refine (bmax_at V c A sel hE t h ⟨t.val, ht⟩ rfl).trans ?_
  show _ = G11 A sel (((cfg0.win 11).blk t).view.emb (ix3 (0 : Fin 1) (0 : Fin 1) h))
  refine (G11_at A sel _ _ h ?_ ?_).symm
  · show win0_11.index t (0 : Fin 3) * 1 + 1 * 0 = t.val; omega
  · show win0_11.index t (2 : Fin 3) * 8 + 1 * h.val = h.val; omega

/-- What point t writes back to the block sums: row t. -/
theorem flushed12 (c : Dev nD) (A : Args) (sel : Mat 128 8) (hE : Entry V c A sel) (t : Fin cfg0.N) :
    (dat0 V c).flushed 12 t = ((cfg0.win 12).blk t).view.read (Elt Ideal) (G12 A sel) := by
  show (cfg0.win 12).cut (grid0.coords t) ((dat0 V c).after 12 t) = _
  rw [after0_12]
  unfold out0_12
  rw [View.canon_unit_zero hz3]
  simp only [View.ld_unit_zero (S := S5000x128) hz2, View.ld_unit_zero (S := S128x128) hz2, View.ld_unit_zero (S := S1x128) hz2, View.ld_unit_zero (S := S5000x32) hz2, View.ld_unit_zero (S := S32x128) hz2, View.ld_unit_zero (S := S128x8) hz2]
  funext j
  have hi := idx t
  have ht := tlt t
  obtain ⟨a, b, h, rfl⟩ : ∃ (a b : Fin 1) (h : Fin 8), j = ix3 a b h := ⟨j 0, j 1, j 2, eq_ix3 j⟩
  obtain rfl : a = 0 := Subsingleton.elim _ _
  obtain rfl : b = 0 := Subsingleton.elim _ _
  refine (Pay.pay2_at _ _ h).trans ?_
  rw [bmax_at V c A sel hE t h ⟨t.val, ht⟩ rfl]
  show _ = G12 A sel (((cfg0.win 12).blk t).view.emb (ix3 (0 : Fin 1) (0 : Fin 1) h))
  rw [G12_at A sel _ ⟨t.val, ht⟩ h (by show win0_12.index t (0 : Fin 3) * 1 + 1 * 0 = t.val; omega)
    (by show win0_12.index t (2 : Fin 3) * 8 + 1 * h.val = h.val; omega)]
  unfold Cert.Attn.bsum
  refine Finset.sum_congr rfl fun r _ => ?_
  rw [score_at V c A sel hE t r h (Cert.Attn.edge ⟨t.val, ht⟩ r) (by show 5000 * t.val + r.val = t.val * 5000 + r.val; omega)]

/-- An index of the scores array is in point t's block iff each coordinate is in the block's range. -/
theorem mem_blk10 (t : Fin cfg0.N) (i : S250000x8.Idx) :
    i ∈ ((cfg0.win 10).blk t).view.set ↔ ∀ a : Fin 2, win0_10.index t a * S5000x8.size a ≤ (i a).val ∧ (i a).val < win0_10.index t a * S5000x8.size a + S5000x8.size a := by
  show i ∈ ((View.whole main_v5_0).slice (win0_10.rect t)).set ↔ _
  rw [View.set_slice_whole, Rect.mem_set_unit]
  exact Iff.rfl
theorem mem_blk11 (t : Fin cfg0.N) (i : S50x1x8.Idx) :
    i ∈ ((cfg0.win 11).blk t).view.set ↔ ∀ a : Fin 3, win0_11.index t a * S1x1x8.size a ≤ (i a).val ∧ (i a).val < win0_11.index t a * S1x1x8.size a + S1x1x8.size a := by
  show i ∈ ((View.whole main_v5_1).slice (win0_11.rect t)).set ↔ _
  rw [View.set_slice_whole, Rect.mem_set_unit]
  exact Iff.rfl
theorem mem_blk12 (t : Fin cfg0.N) (i : S50x1x8.Idx) :
    i ∈ ((cfg0.win 12).blk t).view.set ↔ ∀ a : Fin 3, win0_12.index t a * S1x1x8.size a ≤ (i a).val ∧ (i a).val < win0_12.index t a * S1x1x8.size a + S1x1x8.size a := by
  show i ∈ ((View.whole main_v5_2).slice (win0_12.rect t)).set ↔ _
  rw [View.set_slice_whole, Rect.mem_set_unit]
  exact Iff.rfl

/-- Row e of the scores is in block e / 5000. -/
theorem cover10 (i : S250000x8.Idx) : ∃ t : Fin cfg0.N, (cfg0.win 10).flush t = true ∧ i ∈ ((cfg0.win 10).blk t).view.set := by
  have h0 : (i 0).val < 250000 := (i 0).isLt
  have h1 : (i 1).val < 8 := (i 1).isLt
  have hq : (i 0).val / 5000 < cfg0.N := by rw [N50]; omega
  have hi := idx ⟨(i 0).val / 5000, hq⟩
  have hv : (⟨(i 0).val / 5000, hq⟩ : Fin cfg0.N).val = (i 0).val / 5000 := rfl
  refine ⟨⟨(i 0).val / 5000, hq⟩, flush0_10 _, ?_⟩
  rw [mem_blk10]
  intro a
  match a with
  | ⟨0, _⟩ => show win0_10.index _ (0 : Fin 2) * 5000 ≤ (i 0).val ∧ (i 0).val < win0_10.index _ (0 : Fin 2) * 5000 + 5000; omega
  | ⟨1, _⟩ => show win0_10.index _ (1 : Fin 2) * 8 ≤ (i 1).val ∧ (i 1).val < win0_10.index _ (1 : Fin 2) * 8 + 8; omega

theorem cover11 (i : S50x1x8.Idx) : ∃ t : Fin cfg0.N, (cfg0.win 11).flush t = true ∧ i ∈ ((cfg0.win 11).blk t).view.set := by
  have h0 : (i 0).val < 50 := (i 0).isLt
  have h1 : (i 1).val < 1 := (i 1).isLt
  have h2 : (i 2).val < 8 := (i 2).isLt
  have hq : (i 0).val < cfg0.N := by rw [N50]; omega
  have hi := idx ⟨(i 0).val, hq⟩
  have hv : (⟨(i 0).val, hq⟩ : Fin cfg0.N).val = (i 0).val := rfl
  refine ⟨⟨(i 0).val, hq⟩, flush0_11 _, ?_⟩
  rw [mem_blk11]
  intro a
  match a with
  | ⟨0, _⟩ => show win0_11.index _ (0 : Fin 3) * 1 ≤ (i 0).val ∧ (i 0).val < win0_11.index _ (0 : Fin 3) * 1 + 1; omega
  | ⟨1, _⟩ => show win0_11.index _ (1 : Fin 3) * 1 ≤ (i 1).val ∧ (i 1).val < win0_11.index _ (1 : Fin 3) * 1 + 1; omega
  | ⟨2, _⟩ => show win0_11.index _ (2 : Fin 3) * 8 ≤ (i 2).val ∧ (i 2).val < win0_11.index _ (2 : Fin 3) * 8 + 8; omega

theorem cover12 (i : S50x1x8.Idx) : ∃ t : Fin cfg0.N, (cfg0.win 12).flush t = true ∧ i ∈ ((cfg0.win 12).blk t).view.set := by
  have h0 : (i 0).val < 50 := (i 0).isLt
  have h1 : (i 1).val < 1 := (i 1).isLt
  have h2 : (i 2).val < 8 := (i 2).isLt
  have hq : (i 0).val < cfg0.N := by rw [N50]; omega
  have hi := idx ⟨(i 0).val, hq⟩
  have hv : (⟨(i 0).val, hq⟩ : Fin cfg0.N).val = (i 0).val := rfl
  refine ⟨⟨(i 0).val, hq⟩, flush0_12 _, ?_⟩
  rw [mem_blk12]
  intro a
  match a with
  | ⟨0, _⟩ => show win0_12.index _ (0 : Fin 3) * 1 ≤ (i 0).val ∧ (i 0).val < win0_12.index _ (0 : Fin 3) * 1 + 1; omega
  | ⟨1, _⟩ => show win0_12.index _ (1 : Fin 3) * 1 ≤ (i 1).val ∧ (i 1).val < win0_12.index _ (1 : Fin 3) * 1 + 1; omega
  | ⟨2, _⟩ => show win0_12.index _ (2 : Fin 3) * 8 ≤ (i 2).val ∧ (i 2).val < win0_12.index _ (2 : Fin 3) * 8 + 8; omega

/-- After the region the scores array holds the kernel's scores, -/
theorem final10 (c : Dev nD) (A : Args) (sel : Mat 128 8) (hE : Entry V c A sel) : (dat0 V c).arrAt 10 cfg0.N = G10 A sel :=
  (dat0 V c).arrAt_eq_of_cover 10 (G10 A sel) (fun t _ => flushed10 V c A sel hE t) cover10
/-- the block maxima, -/
theorem final11 (c : Dev nD) (A : Args) (sel : Mat 128 8) (hE : Entry V c A sel) : (dat0 V c).arrAt 11 cfg0.N = G11 A sel :=
  (dat0 V c).arrAt_eq_of_cover 11 (G11 A sel) (fun t _ => flushed11 V c A sel hE t) cover11
/-- and the block sums. -/
theorem final12 (c : Dev nD) (A : Args) (sel : Mat 128 8) (hE : Entry V c A sel) : (dat0 V c).arrAt 12 cfg0.N = G12 A sel :=
  (dat0 V c).arrAt_eq_of_cover 12 (G12 A sel) (fun t _ => flushed12 V c A sel hE t) cover12

end Cert.KernelIdeal.Reg0

end
-- ==== Proof.Reg1.lean ====
/-
  What the output kernel leaves in its result array.

  The grid has 25 points; point t reads rows 10000·t … 10000·t + 9999 of the second edge-feature array and of the
  scores (the two statistics rows, the value layer's weights and bias, the transposed selector and the last dense
  layer whole) and writes back block t of the result [250000, 128].  Entry by entry the stored block is, at row r and
  column q, the output of edge 10000·t + r at column q: each channel's head weight exp(score - max) / sum, spread
  over the channels by the transposed selector, times the value row, through the last dense layer; the blocks
  tile the array.
-/
import proofs.«154555_j28295244546584_2_alg».proof.Proof.Gen.KernelIdeal.Frame
import proofs.«154555_j28295244546584_2_alg».proof.Proof.Pay
import proofs.«154555_j28295244546584_2_alg».proof.Proof.Spec
import Idealize.ShloMosaic.Lib.Pipeline.Value

set_option maxRecDepth 16384

noncomputable section

namespace Cert.KernelIdeal.Reg1

open Cert.KernelIdeal Cert.KernelIdeal.Gen
open Idealize.ShloMosaic Idealize.ShloMosaic.ValueIdx Idealize.ShloMosaic.TcCoe Idealize.SL.Sem
open Idealize.ShloMosaic.Pipeline (Dat)
open Cert.Attn (Args Mat Vect)

variable (V : (c : Dev nD) → (b : Ref sig .tc) → Buf (Elt Ideal) ((c : Thread nD τ).loc b))

theorem hz2 : (![0, 0] : Fin 2 → Nat) = fun _ => 0 := funext fun a => by fin_cases a <;> rfl

/-- What the region finds in its operands' arrays, in the specification's terms: the second edge-feature array, the
    scores with their overall maximum and sum as rows [1, 8], the value layer and the last dense layer with their
    biases as rows [1, 128], and the transposed selector. -/
structure Entry (c : Dev nD) (A : Args) (selT : Mat 8 128) (s : Fin 250000 → Fin 8 → EReal) (gm gs : Fin 8 → EReal) : Prop where
  xj : (V c main_arg1 : S250000x128.Idx → EReal) = A.xj
  sc : ∀ (e : Fin 250000) (h : Fin 8), (V c main_v5_0 : S250000x8.Idx → EReal) (ix2 e h) = s e h
  mx : ∀ h : Fin 8, (V c main_v9 : S1x8.Idx → EReal) (ix2 (0 : Fin 1) h) = gm h
  sm : ∀ h : Fin 8, (V c main_v15 : S1x8.Idx → EReal) (ix2 (0 : Fin 1) h) = gs h
  wv : (V c main_arg7 : S128x128.Idx → EReal) = A.wv
  bv : ∀ k : Fin 128, (V c main_v2 : S1x128.Idx → EReal) (ix2 (0 : Fin 1) k) = A.bv (ix1 k)
  selT : (V c main_cst_0 : S8x128.Idx → EReal) = selT
  wo : (V c main_arg11 : S128x128.Idx → EReal) = A.wo
  bo : ∀ k : Fin 128, (V c main_v4 : S1x128.Idx → EReal) (ix2 (0 : Fin 1) k) = A.bo (ix1 k)

/-- The printed index maps over the grid: the row-blocked windows sit at block (t, 0), the whole ones at (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem N25 : cfg1.N = 25 := N_1

/-- Window 0's block at point t is rows 10000·t … of its array. -/
theorem blk_0 (c : Dev nD) (t : Fin cfg1.N) (r : Fin 10000) (j : Fin 128) (e : Fin 250000) (he : e.val = t.val * 10000 + r.val) :
    (iblk1 V c 0 t : S10000x128.Idx → EReal) (ix2 r j) = (V c main_arg1 : S250000x128.Idx → EReal) (ix2 e j) := by
  have hi := idx t
  unfold iblk1
  rw [View.read_apply]
  show (V c main_arg1 : S250000x128.Idx → EReal) _ = (V c main_arg1 : S250000x128.Idx → EReal) _
  refine congrArg (V c main_arg1 : S250000x128.Idx → EReal) (funext fun a => Fin.ext ?_)
  match a with
  | ⟨0, _⟩ => show win1_0.index t (0 : Fin 2) * 10000 + 1 * r.val = e.val; omega
  | ⟨1, _⟩ => show win1_0.index t (1 : Fin 2) * 128 + 1 * j.val = j.val; omega

/-- Window 1's block at point t is rows 10000·t … of its array. -/
theorem blk_1 (c : Dev nD) (t : Fin cfg1.N) (r : Fin 10000) (j : Fin 8) (e : Fin 250000) (he : e.val = t.val * 10000 + r.val) :
    (iblk1 V c 1 t : S10000x8.Idx → EReal) (ix2 r j) = (V c main_v5_0 : S250000x8.Idx → EReal) (ix2 e j) := by
  have hi := idx t
  unfold iblk1
  rw [View.read_apply]
  show (V c main_v5_0 : S250000x8.Idx → EReal) _ = (V c main_v5_0 : S250000x8.Idx → EReal) _
  refine congrArg (V c main_v5_0 : S250000x8.Idx → EReal) (funext fun a => Fin.ext ?_)
  match a with
  | ⟨0, _⟩ => show win1_1.index t (0 : Fin 2) * 10000 + 1 * r.val = e.val; omega
  | ⟨1, _⟩ => show win1_1.index t (1 : Fin 2) * 8 + 1 * j.val = j.val; omega

/-- Window 2's block at every point is its whole array. -/
theorem blk_2 (c : Dev nD) (t : Fin cfg1.N) (y : S1x8.Idx) :
    (iblk1 V c 2 t : S1x8.Idx → EReal) y = (V c main_v9 : S1x8.Idx → EReal) y := by
  have hi := idx t
  unfold iblk1
  rw [View.read_apply]
  show (V c main_v9 : S1x8.Idx → EReal) _ = (V c main_v9 : S1x8.Idx → EReal) _
  refine congrArg (V c main_v9 : S1x8.Idx → EReal) (funext fun a => Fin.ext ?_)
  match a with
  | ⟨0, _⟩ => show win1_2.index t (0 : Fin 2) * 1 + 1 * (y 0).val = (y 0).val; omega
  | ⟨1, _⟩ => show win1_2.index t (1 : Fin 2) * 8 + 1 * (y 1).val = (y 1).val; omega

/-- Window 3's block at every point is its whole array. -/
theorem blk_3 (c : Dev nD) (t : Fin cfg1.N) (y : S1x8.Idx) :
    (iblk1 V c 3 t : S1x8.Idx → EReal) y = (V c main_v15 : S1x8.Idx → EReal) y := by
  have hi := idx t
  unfold iblk1
  rw [View.read_apply]
  show (V c main_v15 : S1x8.Idx → EReal) _ = (V c main_v15 : S1x8.Idx → EReal) _
  refine congrArg (V c main_v15 : S1x8.Idx → EReal) (funext fun a => Fin.ext ?_)
  match a with
  | ⟨0, _⟩ => show win1_3.index t (0 : Fin 2) * 1 + 1 * (y 0).val = (y 0).val; omega
  | ⟨1, _⟩ => show win1_3.index t (1 : Fin 2) * 8 + 1 * (y 1).val = (y 1).val; omega

/-- Window 4's block at every point is its whole array. -/
theorem blk_4 (c : Dev nD) (t : Fin cfg1.N) (y : S128x128.Idx) :
    (iblk1 V c 4 t : S128x128.Idx → EReal) y = (V c main_arg7 : S128x128.Idx → EReal) y := by
  have hi := idx t
  unfold iblk1
  rw [View.read_apply]
  show (V c main_arg7 : S128x128.Idx → EReal) _ = (V c main_arg7 : S128x128.Idx → EReal) _
  refine congrArg (V c main_arg7 : S128x128.Idx → EReal) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block at every point is its whole array. -/
theorem blk_5 (c : Dev nD) (t : Fin cfg1.N) (y : S1x128.Idx) :
    (iblk1 V c 5 t : S1x128.Idx → EReal) y = (V c main_v2 : S1x128.Idx → EReal) y := by
  have hi := idx t
  unfold iblk1
  rw [View.read_apply]
  show (V c main_v2 : S1x128.Idx → EReal) _ = (V c main_v2 : S1x128.Idx → EReal) _
  refine congrArg (V c main_v2 : S1x128.Idx → EReal) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block at every point is its whole array. -/
theorem blk_6 (c : Dev nD) (t : Fin cfg1.N) (y : S8x128.Idx) :
    (iblk1 V c 6 t : S8x128.Idx → EReal) y = (V c main_cst_0 : S8x128.Idx → EReal) y := by
  have hi := idx t
  unfold iblk1
  rw [View.read_apply]
  show (V c main_cst_0 : S8x128.Idx → EReal) _ = (V c main_cst_0 : S8x128.Idx → EReal) _
  refine congrArg (V c main_cst_0 : S8x128.Idx → EReal) (funext fun a => Fin.ext ?_)
  match a with
  | ⟨0, _⟩ => show win1_6.index t (0 : Fin 2) * 8 + 1 * (y 0).val = (y 0).val; omega
  | ⟨1, _⟩ => show win1_6.index t (1 : Fin 2) * 128 + 1 * (y 1).val = (y 1).val; omega

/-- Window 7's block at every point is its whole array. -/
theorem blk_7 (c : Dev nD) (t : Fin cfg1.N) (y : S128x128.Idx) :
    (iblk1 V c 7 t : S128x128.Idx → EReal) y = (V c main_arg11 : S128x128.Idx → EReal) y := by
  have hi := idx t
  unfold iblk1
  rw [View.read_apply]
  show (V c main_arg11 : S128x128.Idx → EReal) _ = (V c main_arg11 : S128x128.Idx → EReal) _
  refine congrArg (V c main_arg11 : S128x128.Idx → EReal) (funext fun a => Fin.ext ?_)
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- Window 8's block at every point is its whole array. -/
theorem blk_8 (c : Dev nD) (t : Fin cfg1.N) (y : S1x128.Idx) :
    (iblk1 V c 8 t : S1x128.Idx → EReal) y = (V c main_v4 : S1x128.Idx → EReal) y := by
  have hi := idx t
  unfold iblk1
  rw [View.read_apply]
  show (V c main_v4 : S1x128.Idx → EReal) _ = (V c main_v4 : S1x128.Idx → EReal) _
  refine congrArg (V c main_v4 : S1x128.Idx → EReal) (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- The result as an array: the output of edge (i 0) at column (i 1), from the scores s, their maximum gm and their
    sum gs. -/
def G9 (A : Args) (selT : Mat 8 128) (s : Fin 250000 → Fin 8 → EReal) (gm gs : Fin 8 → EReal) : S250000x128.Idx → EReal := fun i =>
  (∑ k : Fin 128, ((∑ h : Fin 8, Ideal.div (Ideal.exp (s ⟨(i 0).val, (i 0).isLt⟩ h - gm h)) (gs h) * selT (ix2 h k)) * Cert.Attn.V A ⟨(i 0).val, (i 0).isLt⟩ k) * A.wo (ix2 k ⟨(i 1).val, (i 1).isLt⟩)) + A.bo (ix1 ⟨(i 1).val, (i 1).isLt⟩)

/-- The stored entry of row r of block t at column q is the output of edge 10000·t + r at column q. -/
theorem out_at (c : Dev nD) (A : Args) (selT : Mat 8 128) (s : Fin 250000 → Fin 8 → EReal) (gm gs : Fin 8 → EReal)
    (hE : Entry V c A selT s gm gs) (t : Fin cfg1.N) (r : Fin 10000) (q : Fin 128) (e : Fin 250000) (he : e.val = t.val * 10000 + r.val) :
    k1_pay1 (F := Ideal) (iblk1 V c 0 t) (iblk1 V c 4 t) (iblk1 V c 5 t) (iblk1 V c 1 t) (iblk1 V c 2 t) (iblk1 V c 3 t)
        (iblk1 V c 6 t) (iblk1 V c 7 t) (iblk1 V c 8 t) (ix2 r q)
      = (∑ k : Fin 128, ((∑ h : Fin 8, Ideal.div (Ideal.exp (s e h - gm h)) (gs h) * selT (ix2 h k)) * Cert.Attn.V A e k) * A.wo (ix2 k q)) + A.bo (ix1 q) := by
  refine (Pay.pay_out_at _ _ _ _ _ _ _ _ _ r q).trans ?_
  simp only [blk_0 V c t r _ e he, blk_1 V c t r _ e he, blk_2 V c t, blk_3 V c t, blk_4 V c t, blk_5 V c t, blk_6 V c t,
    blk_7 V c t, blk_8 V c t, hE.xj, hE.sc, hE.mx, hE.sm, hE.wv, hE.bv, hE.selT, hE.wo, hE.bo]
  rfl

theorem tlt (t : Fin cfg1.N) : t.val < 25 := lt_of_lt_of_eq t.isLt N25

theorem G9_at (A : Args) (selT : Mat 8 128) (s : Fin 250000 → Fin 8 → EReal) (gm gs : Fin 8 → EReal) (i : S250000x128.Idx)
    (e : Fin 250000) (q : Fin 128) (h0 : (i 0).val = e.val) (h1 : (i 1).val = q.val) :
    G9 A selT s gm gs i
      = (∑ k : Fin 128, ((∑ h : Fin 8, Ideal.div (Ideal.exp (s e h - gm h)) (gs h) * selT (ix2 h k)) * Cert.Attn.V A e k) * A.wo (ix2 k q)) + A.bo (ix1 q) := by
  unfold G9
  rw [show (⟨(i 0).val, (i 0).isLt⟩ : Fin 250000) = e from Fin.ext h0, show (⟨(i 1).val, (i 1).isLt⟩ : Fin 128) = q from Fin.ext h1]

/-- What point t writes back to the result: block t of the result array. -/
theorem flushed9 (c : Dev nD) (A : Args) (selT : Mat 8 128) (s : Fin 250000 → Fin 8 → EReal) (gm gs : Fin 8 → EReal)
    (hE : Entry V c A selT s gm gs) (t : Fin cfg1.N) :
    (dat1 V c).flushed 9 t = ((cfg1.win 9).blk t).view.read (Elt Ideal) (G9 A selT s gm gs) := by
  show (cfg1.win 9).cut (grid1.coords t) ((dat1 V c).after 9 t) = _
  rw [after1_9]
  unfold out1_9
  rw [View.canon_unit_zero hz2]
  simp only [View.ld_unit_zero (S := S10000x128) hz2, View.ld_unit_zero (S := S128x128) hz2, View.ld_unit_zero (S := S1x128) hz2, View.ld_unit_zero (S := S10000x8) hz2, View.ld_unit_zero (S := S1x8) hz2, View.ld_unit_zero (S := S8x128) hz2]
  funext j
  have hi := idx t
  have ht := tlt t
  obtain ⟨r, q, rfl⟩ : ∃ (r : Fin 10000) (q : Fin 128), j = ix2 r q := ⟨j 0, j 1, eq_ix2 j⟩
  have hlt : t.val * 10000 + r.val < 250000 := by have := r.isLt; omega
  refine (out_at V c A selT s gm gs hE t r q ⟨t.val * 10000 + r.val, hlt⟩ rfl).trans ?_
  show _ = G9 A selT s gm gs (((cfg1.win 9).blk t).view.emb (ix2 r q))
  refine (G9_at A selT s gm gs _ _ q ?_ ?_).symm
  · show win1_9.index t (0 : Fin 2) * 10000 + 1 * r.val = t.val * 10000 + r.val; omega
  · show win1_9.index t (1 : Fin 2) * 128 + 1 * q.val = q.val; omega

/-- An index of the result array is in point t's block iff each coordinate is in the block's range. -/
theorem mem_blk9 (t : Fin cfg1.N) (i : S250000x128.Idx) :
    i ∈ ((cfg1.win 9).blk t).view.set ↔ ∀ a : Fin 2, win1_9.index t a * S10000x128.size a ≤ (i a).val ∧ (i a).val < win1_9.index t a * S10000x128.size a + S10000x128.size a := by
  show i ∈ ((View.whole main_v16).slice (win1_9.rect t)).set ↔ _
  rw [View.set_slice_whole, Rect.mem_set_unit]
  exact Iff.rfl

/-- Row e of the result is in block e / 10000. -/
theorem cover9 (i : S250000x128.Idx) : ∃ t : Fin cfg1.N, (cfg1.win 9).flush t = true ∧ i ∈ ((cfg1.win 9).blk t).view.set := by
  have h0 : (i 0).val < 250000 := (i 0).isLt
  have h1 : (i 1).val < 128 := (i 1).isLt
  have hq : (i 0).val / 10000 < cfg1.N := by rw [N25]; omega
  have hi := idx ⟨(i 0).val / 10000, hq⟩
  have hv : (⟨(i 0).val / 10000, hq⟩ : Fin cfg1.N).val = (i 0).val / 10000 := rfl
  refine ⟨⟨(i 0).val / 10000, hq⟩, flush1_9 _, ?_⟩
  rw [mem_blk9]
  intro a
  match a with
  | ⟨0, _⟩ => show win1_9.index _ (0 : Fin 2) * 10000 ≤ (i 0).val ∧ (i 0).val < win1_9.index _ (0 : Fin 2) * 10000 + 10000; omega
  | ⟨1, _⟩ => show win1_9.index _ (1 : Fin 2) * 128 ≤ (i 1).val ∧ (i 1).val < win1_9.index _ (1 : Fin 2) * 128 + 128; omega

/-- After the region the result array holds the output, entry by entry. -/
theorem final9 (c : Dev nD) (A : Args) (selT : Mat 8 128) (s : Fin 250000 → Fin 8 → EReal) (gm gs : Fin 8 → EReal)
    (hE : Entry V c A selT s gm gs) : (dat1 V c).arrAt 9 cfg1.N = G9 A selT s gm gs :=
  (dat1 V c).arrAt_eq_of_cover 9 (G9 A selT s gm gs) (fun t _ => flushed9 V c A selT s gm gs hE t) cover9

end Cert.KernelIdeal.Reg1

end
-- ==== Proof.HostReads.lean ====
/-
  The kernel program's two stretches of host operations, read at an entry, from any contents of the buffers.

  The first stretch writes two literal tables and recasts the five bias vectors [128] as rows [1, 128]: a row's entry
  (0, k) is the vector's entry k, and no operation of the stretch writes an argument. The second stretch, between the
  two kernel regions, recasts the block maxima and the block sums from [50, 1, 8] to [50, 8], takes the maximum of the
  block maxima over the fifty blocks from minus infinity, rescales each block sum by the exponential of its block
  maximum minus that maximum, sums the rescaled block sums over the blocks from zero, and makes both results rows
  [1, 8]. The maximum is a reduction over one axis with a commutative and associative body, hence the fold of max over
  the blocks; the sum is the host's sum over one axis, hence the initial value plus the sum over the blocks; the
  recasts and the rows move no entry.
-/
import proofs.«154555_j28295244546584_2_alg».proof.Proof.Gen.KernelIdeal.Launch
import proofs.«154555_j28295244546584_2_alg».proof.Proof.LibRowCast
import Idealize.ShloMosaic.Lib.StableHlo.Run
import Idealize.ShloMosaic.Lib.Pipeline.Value
import Idealize.ShloMosaic.Lib.ValueIdx
import Idealize.ShloMosaic.PureOps.Reduce
import Idealize.ShloMosaic.PureOps.Ideal.Laws

noncomputable section

namespace Cert.KernelIdeal.HostReads

open Cert.KernelIdeal Cert.KernelIdeal.Gen Idealize.ShloMosaic Idealize.ShloMosaic.TcCoe Idealize.ShloMosaic.ValueIdx

variable (W : Valuation τ sig (Elt Ideal))

/-! ## The first stretch: two literal tables and the five bias vectors recast as rows -/

theorem after0_cst :
    (StableHlo.after (hostOps0 (F := Ideal)) W (Proc.devRef .tc main_cst) : S128x8.Idx → EReal)
      = fun i => FloatOps.ofBits (F := Ideal) .f32 (lit0 (S128x8.rowMajor i)) := by
  after_results
  rfl

theorem after0_cst_0 :
    (StableHlo.after (hostOps0 (F := Ideal)) W (Proc.devRef .tc main_cst_0) : S8x128.Idx → EReal)
      = fun i => FloatOps.ofBits (F := Ideal) .f32 (lit1 (S8x128.rowMajor i)) := by
  after_results
  rfl

theorem after0_v0 (k : Fin 128) :
    (StableHlo.after (hostOps0 (F := Ideal)) W (Proc.devRef .tc main_v0) : S1x128.Idx → EReal) (ix2 (0 : Fin 1) k)
      = (W (Proc.devRef .tc main_arg4) : S128.Idx → EReal) (ix1 k) := by
  have e : (StableHlo.after (hostOps0 (F := Ideal)) W (Proc.devRef .tc main_v0) : S1x128.Idx → EReal)
      = shapeCast S1x128 (W (Proc.devRef .tc main_arg4) : S128.Idx → EReal) shapeCasts_S128_S1x128 := by
    after_results
    rfl
  rw [e]
  exact Cert.Lib.RowCast.shapeCast_n_1n_apply _ _ k

theorem after0_v1 (k : Fin 128) :
    (StableHlo.after (hostOps0 (F := Ideal)) W (Proc.devRef .tc main_v1) : S1x128.Idx → EReal) (ix2 (0 : Fin 1) k)
      = (W (Proc.devRef .tc main_arg6) : S128.Idx → EReal) (ix1 k) := by
  have e : (StableHlo.after (hostOps0 (F := Ideal)) W (Proc.devRef .tc main_v1) : S1x128.Idx → EReal)
      = shapeCast S1x128 (W (Proc.devRef .tc main_arg6) : S128.Idx → EReal) shapeCasts_S128_S1x128 := by
    after_results
    rfl
  rw [e]
  exact Cert.Lib.RowCast.shapeCast_n_1n_apply _ _ k

theorem after0_v2 (k : Fin 128) :
    (StableHlo.after (hostOps0 (F := Ideal)) W (Proc.devRef .tc main_v2) : S1x128.Idx → EReal) (ix2 (0 : Fin 1) k)
      = (W (Proc.devRef .tc main_arg8) : S128.Idx → EReal) (ix1 k) := by
  have e : (StableHlo.after (hostOps0 (F := Ideal)) W (Proc.devRef .tc main_v2) : S1x128.Idx → EReal)
      = shapeCast S1x128 (W (Proc.devRef .tc main_arg8) : S128.Idx → EReal) shapeCasts_S128_S1x128 := by
    after_results
    rfl
  rw [e]
  exact Cert.Lib.RowCast.shapeCast_n_1n_apply _ _ k

theorem after0_v3 (k : Fin 128) :
    (StableHlo.after (hostOps0 (F := Ideal)) W (Proc.devRef .tc main_v3) : S1x128.Idx → EReal) (ix2 (0 : Fin 1) k)
      = (W (Proc.devRef .tc main_arg10) : S128.Idx → EReal) (ix1 k) := by
  have e : (StableHlo.after (hostOps0 (F := Ideal)) W (Proc.devRef .tc main_v3) : S1x128.Idx → EReal)
      = shapeCast S1x128 (W (Proc.devRef .tc main_arg10) : S128.Idx → EReal) shapeCasts_S128_S1x128 := by
    after_results
    rfl
  rw [e]
  exact Cert.Lib.RowCast.shapeCast_n_1n_apply _ _ k

theorem after0_v4 (k : Fin 128) :
    (StableHlo.after (hostOps0 (F := Ideal)) W (Proc.devRef .tc main_v4) : S1x128.Idx → EReal) (ix2 (0 : Fin 1) k)
      = (W (Proc.devRef .tc main_arg12) : S128.Idx → EReal) (ix1 k) := by
  have e : (StableHlo.after (hostOps0 (F := Ideal)) W (Proc.devRef .tc main_v4) : S1x128.Idx → EReal)
      = shapeCast S1x128 (W (Proc.devRef .tc main_arg12) : S128.Idx → EReal) shapeCasts_S128_S1x128 := by
    after_results
    rfl
  rw [e]
  exact Cert.Lib.RowCast.shapeCast_n_1n_apply _ _ k

/-! No operation of the first stretch writes an argument. -/

theorem keep0_main_arg0 :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg1 :
    StableHlo.after (hostOps0 (F := Ideal)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg2 :
    StableHlo.after (hostOps0 (F := Ideal)) W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg3 :
    StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg4 :
    StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg5 :
    StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg6 :
    StableHlo.after (hostOps0 (F := Ideal)) W (Proc.devRef .tc main_arg6) = W (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg7 :
    StableHlo.after (hostOps0 (F := Ideal)) W (Proc.devRef .tc main_arg7) = W (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg8 :
    StableHlo.after (hostOps0 (F := Ideal)) W (Proc.devRef .tc main_arg8) = W (Proc.devRef .tc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg9 :
    StableHlo.after (hostOps0 (F := Ideal)) W (Proc.devRef .tc main_arg9) = W (Proc.devRef .tc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg10 :
    StableHlo.after (hostOps0 (F := Ideal)) W (Proc.devRef .tc main_arg10) = W (Proc.devRef .tc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg11 :
    StableHlo.after (hostOps0 (F := Ideal)) W (Proc.devRef .tc main_arg11) = W (Proc.devRef .tc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))
theorem keep0_main_arg12 :
    StableHlo.after (hostOps0 (F := Ideal)) W (Proc.devRef .tc main_arg12) = W (Proc.devRef .tc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## The second stretch: the block maxima and block sums merged over the fifty blocks -/

/-- A [50, 1, 8] array recast to [50, 8], read at (b, h), is the operand at (b, 0, h). -/
theorem cast6 (x : S50x1x8.Idx → EReal) (b : Fin 50) (h : Fin 8) :
    shapeCast S50x8 x shapeCasts_S50x1x8_S50x8 (ix2 b h) = x (ix3 b (0 : Fin 1) h) :=
  shapeCast_apply x shapeCasts_S50x1x8_S50x8 _ _ (by
    rw [Shape.rowMajor_val_three, Shape.rowMajor_val_two]
    show (b.val * 1 + 0) * 8 + h.val = b.val * 8 + h.val
    omega)

/-- A vector of 8 entries made a row, read at (0, h), is entry h. -/
theorem row8 (x : S8.Idx → EReal) (h : Fin 8) :
    broadcastInDim S1x8 ![1] bcast_S8_S1x8_1 x (ix2 (0 : Fin 1) h) = x (ix1 h) :=
  broadcastInDim_apply _ bcast_S8_S1x8_1 x _ (ix1 h) (fun a => match a with
    | ⟨0, _⟩ => by show h.val = if (8 : Nat) = 1 then 0 else h.val; rw [if_neg (by decide)])

/-- A row repeated over the fifty blocks, read at (b, h), is the row at (0, h). -/
theorem rows50 (x : S1x8.Idx → EReal) (b : Fin 50) (h : Fin 8) :
    broadcastInDim S50x8 ![0, 1] bcast_S1x8_S50x8_0_1 x (ix2 b h) = x (ix2 (0 : Fin 1) h) :=
  broadcastInDim_apply _ bcast_S1x8_S50x8_0_1 x _ (ix2 (0 : Fin 1) h) (fun a => match a with
    | ⟨0, _⟩ => by show 0 = if (1 : Nat) = 1 then 0 else b.val; rw [if_pos rfl]
    | ⟨1, _⟩ => by show h.val = if (8 : Nat) = 1 then 0 else h.val; rw [if_neg (by decide)])

theorem reduces_S50x8_S8 : S50x8.Reduces [0] S8 := by decide

/-- Head h with block k put back on the reduced axis is the index (k, h). -/
theorem lift8 (hR : S50x8.Reduces [0] S8) (h : Fin 8) (k : Fin (S50x8.size 0)) :
    hR.lift (ix1 h) k = ix2 (⟨k.val, k.isLt⟩ : Fin 50) h := by
  funext c; apply Fin.ext
  match c with
  | ⟨0, _⟩ => rfl
  | ⟨1, _⟩ => rfl

/-- The reduce with a maximum body over the block axis, from minus infinity, is the fold of max over the blocks. -/
theorem max8 (y : (⟨S50x8, .f32⟩ : BufTy).Contents (Elt Ideal)) (h : Fin 8) :
    Host.reduce (FloatOps.maximumf (F := Ideal) (φ := .f32)) y (constant (F := Ideal) S_ .f32 0xFF800000#32)
        reducesTo_S50x8_S8_d0 h_S_ (ix1 h)
      = (Finset.univ : Finset (Fin 50)).fold max (Ideal.ofBits .f32 0xFF800000#32) (fun b => y (ix2 b h)) := by
  refine (Host.reduce_eq_fold_single (α := EReal) (s := S50x8) (t := S8) (a := 0) (u := S_)
    (FloatOps.maximumf (F := Ideal) (φ := .f32)) y (constant (F := Ideal) S_ .f32 0xFF800000#32)
    reducesTo_S50x8_S8_d0 reduces_S50x8_S8 h_S_ (ix1 h)).trans ?_
  have hf : (y ∘ reduces_S50x8_S8.lift (ix1 h)) = fun k : Fin 50 => y (ix2 k h) :=
    funext fun k => congrArg y (lift8 reduces_S50x8_S8 h k)
  exact congrArg (fun f => Finset.fold max (Ideal.ofBits .f32 0xFF800000#32) f (Finset.univ : Finset (Fin 50))) hf

/-- The sum over the block axis from zero. -/
theorem sum8 (y : (⟨S50x8, .f32⟩ : BufTy).Contents (Elt Ideal)) (h : Fin 8) :
    Host.reduceAdd (F := Ideal) y (constant (F := Ideal) S_ .f32 0x00000000#32) reducesTo_S50x8_S8_d0 h_S_ (ix1 h)
      = Ideal.ofBits .f32 0x00000000#32 + ∑ b : Fin 50, y (ix2 b h) := by
  simp only [Host.reduceAdd, Ideal.hostReduceAdd_def]
  rw [Ideal.hostReduceAdd_single reducesTo_S50x8_S8_d0 reduces_S50x8_S8]
  refine congrArg (_ + ·) (Finset.sum_congr rfl fun k _ => ?_)
  exact congrArg y (lift8 reduces_S50x8_S8 h k)

/-- The block maxima as a [50, 8] array. -/
def bm : (⟨S50x8, .f32⟩ : BufTy).Contents (Elt Ideal) :=
  shapeCast S50x8 (W (Proc.devRef .tc main_v5_1) : S50x1x8.Idx → EReal) shapeCasts_S50x1x8_S50x8
/-- The block sums as a [50, 8] array. -/
def bs : (⟨S50x8, .f32⟩ : BufTy).Contents (Elt Ideal) :=
  shapeCast S50x8 (W (Proc.devRef .tc main_v5_2) : S50x1x8.Idx → EReal) shapeCasts_S50x1x8_S50x8
/-- The maximum of the block maxima, head by head, as a row. -/
def gmRow : (⟨S1x8, .f32⟩ : BufTy).Contents (Elt Ideal) :=
  broadcastInDim S1x8 ![1] bcast_S8_S1x8_1
    (Host.reduce (FloatOps.maximumf (F := Ideal) (φ := .f32)) (bm W) (constant (F := Ideal) S_ .f32 0xFF800000#32)
      reducesTo_S50x8_S8_d0 h_S_)

theorem bm_apply (b : Fin 50) (h : Fin 8) :
    bm W (ix2 b h) = (W (Proc.devRef .tc main_v5_1) : S50x1x8.Idx → EReal) (ix3 b (0 : Fin 1) h) := cast6 _ b h
theorem bs_apply (b : Fin 50) (h : Fin 8) :
    bs W (ix2 b h) = (W (Proc.devRef .tc main_v5_2) : S50x1x8.Idx → EReal) (ix3 b (0 : Fin 1) h) := cast6 _ b h

theorem gmRow_apply (h : Fin 8) :
    gmRow W (ix2 (0 : Fin 1) h)
      = (Finset.univ : Finset (Fin 50)).fold max (Ideal.ofBits .f32 0xFF800000#32)
          (fun b => (W (Proc.devRef .tc main_v5_1) : S50x1x8.Idx → EReal) (ix3 b (0 : Fin 1) h)) := by
  unfold gmRow
  rw [row8, max8]
  exact congrArg (fun f => Finset.fold max (Ideal.ofBits .f32 0xFF800000#32) f (Finset.univ : Finset (Fin 50)))
    (funext fun b => bm_apply W b h)

theorem after1_v9 (h : Fin 8) :
    (StableHlo.after (hostOps1 (F := Ideal)) W (Proc.devRef .tc main_v9) : S1x8.Idx → EReal) (ix2 (0 : Fin 1) h)
      = (Finset.univ : Finset (Fin 50)).fold max (Ideal.ofBits .f32 0xFF800000#32)
          (fun b => (W (Proc.devRef .tc main_v5_1) : S50x1x8.Idx → EReal) (ix3 b (0 : Fin 1) h)) := by
  have e : (StableHlo.after (hostOps1 (F := Ideal)) W (Proc.devRef .tc main_v9) : S1x8.Idx → EReal) = gmRow W := by
    after_results
    rfl
  rw [e]
  exact gmRow_apply W h

theorem after1_v15 (h : Fin 8) :
    (StableHlo.after (hostOps1 (F := Ideal)) W (Proc.devRef .tc main_v15) : S1x8.Idx → EReal) (ix2 (0 : Fin 1) h)
      = Ideal.ofBits .f32 0x00000000#32 + ∑ b : Fin 50,
          (by exact W (Proc.devRef .tc main_v5_2) : S50x1x8.Idx → EReal) (ix3 b (0 : Fin 1) h)
            * Ideal.exp ((by exact W (Proc.devRef .tc main_v5_1) : S50x1x8.Idx → EReal) (ix3 b (0 : Fin 1) h)
                - (Finset.univ : Finset (Fin 50)).fold max (Ideal.ofBits .f32 0xFF800000#32)
                    (fun b' => (W (Proc.devRef .tc main_v5_1) : S50x1x8.Idx → EReal) (ix3 b' (0 : Fin 1) h))) := by
  have e : (StableHlo.after (hostOps1 (F := Ideal)) W (Proc.devRef .tc main_v15) : S1x8.Idx → EReal)
      = broadcastInDim S1x8 ![1] bcast_S8_S1x8_1
          (Host.reduceAdd (F := Ideal)
            (mulf (F := Ideal) (bs W) (Host.exp (F := Ideal) (subf (F := Ideal) (bm W)
              (broadcastInDim S50x8 ![0, 1] bcast_S1x8_S50x8_0_1 (gmRow W)))))
            (constant (F := Ideal) S_ .f32 0x00000000#32) reducesTo_S50x8_S8_d0 h_S_) := by
    after_results
    rfl
  rw [e, row8, sum8]
  refine congrArg (Ideal.ofBits .f32 0x00000000#32 + ·) (Finset.sum_congr rfl fun b _ => ?_)
  show bs W (ix2 b h) * Ideal.exp (bm W (ix2 b h) - broadcastInDim S50x8 ![0, 1] bcast_S1x8_S50x8_0_1 (gmRow W) (ix2 b h)) = _
  rw [rows50, gmRow_apply, bm_apply, bs_apply]

/-! No operation of the second stretch writes these buffers. -/

theorem keep1_main_arg1 :
    StableHlo.after (hostOps1 (F := Ideal)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem keep1_main_v5_0 :
    StableHlo.after (hostOps1 (F := Ideal)) W (Proc.devRef .tc main_v5_0) = W (Proc.devRef .tc main_v5_0) :=
  StableHlo.after_of_forall_not_mem (b := Proc.devRef .tc main_v5_0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem keep1_main_arg7 :
    StableHlo.after (hostOps1 (F := Ideal)) W (Proc.devRef .tc main_arg7) = W (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem keep1_main_v2 :
    StableHlo.after (hostOps1 (F := Ideal)) W (Proc.devRef .tc main_v2) = W (Proc.devRef .tc main_v2) :=
  StableHlo.after_of_forall_not_mem (b := Proc.devRef .tc main_v2) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem keep1_main_cst_0 :
    StableHlo.after (hostOps1 (F := Ideal)) W (Proc.devRef .tc main_cst_0) = W (Proc.devRef .tc main_cst_0) :=
  StableHlo.after_of_forall_not_mem (b := Proc.devRef .tc main_cst_0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem keep1_main_arg11 :
    StableHlo.after (hostOps1 (F := Ideal)) W (Proc.devRef .tc main_arg11) = W (Proc.devRef .tc main_arg11) :=
  StableHlo.after_of_forall_not_mem (b := Proc.devRef .tc main_arg11) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem keep1_main_v4 :
    StableHlo.after (hostOps1 (F := Ideal)) W (Proc.devRef .tc main_v4) = W (Proc.devRef .tc main_v4) :=
  StableHlo.after_of_forall_not_mem (b := Proc.devRef .tc main_v4) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-! ## The same two readings over any names for the block maxima and block sums at head h -/

theorem after1_v9_of (h : Fin 8) (M : Fin 50 → EReal)
    (hM : ∀ b : Fin 50, (W (Proc.devRef .tc main_v5_1) : S50x1x8.Idx → EReal) (ix3 b (0 : Fin 1) h) = M b) :
    (StableHlo.after (hostOps1 (F := Ideal)) W (Proc.devRef .tc main_v9) : S1x8.Idx → EReal) (ix2 (0 : Fin 1) h)
      = (Finset.univ : Finset (Fin 50)).fold max (Ideal.ofBits .f32 0xFF800000#32) M := by
  rw [after1_v9]
  exact congrArg (fun f => Finset.fold max (Ideal.ofBits .f32 0xFF800000#32) f (Finset.univ : Finset (Fin 50))) (funext hM)

theorem after1_v15_of (h : Fin 8) (M S : Fin 50 → EReal)
    (hM : ∀ b : Fin 50, (W (Proc.devRef .tc main_v5_1) : S50x1x8.Idx → EReal) (ix3 b (0 : Fin 1) h) = M b)
    (hS : ∀ b : Fin 50, (W (Proc.devRef .tc main_v5_2) : S50x1x8.Idx → EReal) (ix3 b (0 : Fin 1) h) = S b) :
    (StableHlo.after (hostOps1 (F := Ideal)) W (Proc.devRef .tc main_v15) : S1x8.Idx → EReal) (ix2 (0 : Fin 1) h)
      = Ideal.ofBits .f32 0x00000000#32 + ∑ b : Fin 50,
          S b * Ideal.exp (M b - (Finset.univ : Finset (Fin 50)).fold max (Ideal.ofBits .f32 0xFF800000#32) M) := by
  rw [after1_v15, show (fun b' : Fin 50 => (W (Proc.devRef .tc main_v5_1) : S50x1x8.Idx → EReal) (ix3 b' (0 : Fin 1) h)) = M
    from funext hM]
  exact congrArg (Ideal.ofBits .f32 0x00000000#32 + ·) (Finset.sum_congr rfl fun b _ => by rw [hM, hS])

end Cert.KernelIdeal.HostReads

end
-- ==== Proof.KValue.lean ====
/-
  The idealized kernel's result array, entry by entry, in the specification's terms.

  The run's last boundary is read backwards: the result is the output kernel's array; that kernel finds the edge
  features, V's weights and the last layer's weights as launched, the scores as the scores kernel left them, and
  the two softmax statistics as the host stretch between the kernels merged them from the per-block maxima and
  sums.  Put together the result is the specification's kernel-side output, outK, of the launch memory's arguments.
-/
import proofs.«154555_j28295244546584_2_alg».proof.Proof.KRun
import proofs.«154555_j28295244546584_2_alg».proof.Proof.Reg0
import proofs.«154555_j28295244546584_2_alg».proof.Proof.Reg1
import proofs.«154555_j28295244546584_2_alg».proof.Proof.HostReads
import proofs.«154555_j28295244546584_2_alg».proof.Proof.Spec

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat)
open Cert.Attn (Args Mat Vect)

variable (m : (ℓ : Loc nD τ sig) → Buf (Elt Ideal) ℓ) (ρ : Dev nD → PrngReg)

/-- The thirteen argument arrays of the launch memory. -/
def argsOf (c : Dev nD) : Args :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12)⟩

/-- The selector matrix the program spells as a table of words, -/
def selLit : Mat 128 8 := fun i : S128x8.Idx => FloatOps.ofBits (F := Ideal) .f32 (lit0 (S128x8.rowMajor i))
/-- and its transpose. -/
def selTLit : Mat 8 128 := fun i : S8x128.Idx => FloatOps.ofBits (F := Ideal) .f32 (lit1 (S8x128.rowMajor i))

/-- What the scores kernel finds in its operands. -/
theorem entry0 (c : Dev nD) : Reg0.Entry (V1 m ρ) c (argsOf m c) selLit where
  xi := by show StableHlo.after hostOps0 (W0 m ρ c) (Proc.devRef .tc main_arg0) = _; rw [HostReads.keep0_main_arg0]; rfl
  xj := by show StableHlo.after hostOps0 (W0 m ρ c) (Proc.devRef .tc main_arg1) = _; rw [HostReads.keep0_main_arg1]; rfl
  ea := by show StableHlo.after hostOps0 (W0 m ρ c) (Proc.devRef .tc main_arg2) = _; rw [HostReads.keep0_main_arg2]; rfl
  wq := by show StableHlo.after hostOps0 (W0 m ρ c) (Proc.devRef .tc main_arg3) = _; rw [HostReads.keep0_main_arg3]; rfl
  bq := fun k => by
    show (StableHlo.after hostOps0 (W0 m ρ c) (Proc.devRef .tc main_v0) : S1x128.Idx → EReal) (ix2 (0 : Fin 1) k) = _
    rw [HostReads.after0_v0]; rfl
  wk := by show StableHlo.after hostOps0 (W0 m ρ c) (Proc.devRef .tc main_arg5) = _; rw [HostReads.keep0_main_arg5]; rfl
  bk := fun k => by
    show (StableHlo.after hostOps0 (W0 m ρ c) (Proc.devRef .tc main_v1) : S1x128.Idx → EReal) (ix2 (0 : Fin 1) k) = _
    rw [HostReads.after0_v1]; rfl
  we := by show StableHlo.after hostOps0 (W0 m ρ c) (Proc.devRef .tc main_arg9) = _; rw [HostReads.keep0_main_arg9]; rfl
  be := fun k => by
    show (StableHlo.after hostOps0 (W0 m ρ c) (Proc.devRef .tc main_v3) : S1x128.Idx → EReal) (ix2 (0 : Fin 1) k) = _
    rw [HostReads.after0_v3]; rfl
  sel := by show StableHlo.after hostOps0 (W0 m ρ c) (Proc.devRef .tc main_cst) = _; rw [HostReads.after0_cst]; rfl

/-- The three arrays the scores kernel leaves. -/
theorem W2_scores (c : Dev nD) : (W2 m ρ c (Proc.devRef .tc main_v5_0) : S250000x8.Idx → EReal) = Reg0.G10 (argsOf m c) selLit :=
  (W2_arr m ρ c 10).trans (Reg0.final10 (V1 m ρ) c _ _ (entry0 m ρ c))
theorem W2_bmax (c : Dev nD) : (W2 m ρ c (Proc.devRef .tc main_v5_1) : S50x1x8.Idx → EReal) = Reg0.G11 (argsOf m c) selLit :=
  (W2_arr m ρ c 11).trans (Reg0.final11 (V1 m ρ) c _ _ (entry0 m ρ c))
theorem W2_bsum (c : Dev nD) : (W2 m ρ c (Proc.devRef .tc main_v5_2) : S50x1x8.Idx → EReal) = Reg0.G12 (argsOf m c) selLit :=
  (W2_arr m ρ c 12).trans (Reg0.final12 (V1 m ρ) c _ _ (entry0 m ρ c))

/-- What the output kernel finds in its operands. -/
theorem entry1 (c : Dev nD) : Reg1.Entry (V3 m ρ) c (argsOf m c) selTLit (Cert.Attn.scoreK (argsOf m c) selLit)
    (Cert.Attn.gmax (Cert.Attn.scoreK (argsOf m c) selLit)) (Cert.Attn.gsum (Cert.Attn.scoreK (argsOf m c) selLit)) where
  xj := by
    show StableHlo.after hostOps1 (W2 m ρ c) (Proc.devRef .tc main_arg1) = _
    rw [HostReads.keep1_main_arg1]
    exact ((W2_arr m ρ c 1).trans (((dat0 (V1 m ρ) c).arrAt_in 1 rfl _).trans (A_eq0 (V1 m ρ) c 1))).trans (entry0 m ρ c).xj
  sc := fun e h => by
    show (StableHlo.after hostOps1 (W2 m ρ c) (Proc.devRef .tc main_v5_0) : S250000x8.Idx → EReal) (ix2 e h) = _
    rw [HostReads.keep1_main_v5_0, W2_scores]
    exact Reg0.G10_at _ _ _ e h rfl rfl
  mx := fun h => by
    show (StableHlo.after hostOps1 (W2 m ρ c) (Proc.devRef .tc main_v9) : S1x8.Idx → EReal) (ix2 (0 : Fin 1) h) = _
    exact HostReads.after1_v9_of (W2 m ρ c) h (fun b => Cert.Attn.bmax (Cert.Attn.scoreK (argsOf m c) selLit) b h)
      (fun b => by rw [W2_bmax]; exact Reg0.G11_at _ _ _ b h rfl rfl)
  sm := fun h => by
    show (StableHlo.after hostOps1 (W2 m ρ c) (Proc.devRef .tc main_v15) : S1x8.Idx → EReal) (ix2 (0 : Fin 1) h) = _
    exact HostReads.after1_v15_of (W2 m ρ c) h (fun b => Cert.Attn.bmax (Cert.Attn.scoreK (argsOf m c) selLit) b h)
      (fun b => Cert.Attn.bsum (Cert.Attn.scoreK (argsOf m c) selLit) b h)
      (fun b => by rw [W2_bmax]; exact Reg0.G11_at _ _ _ b h rfl rfl)
      (fun b => by rw [W2_bsum]; exact Reg0.G12_at _ _ _ b h rfl rfl)
  wv := by
    show StableHlo.after hostOps1 (W2 m ρ c) (Proc.devRef .tc main_arg7) = _
    rw [HostReads.keep1_main_arg7, W2_of_ne m ρ c main_arg7 (by decide)]
    show StableHlo.after hostOps0 (W0 m ρ c) (Proc.devRef .tc main_arg7) = _
    rw [HostReads.keep0_main_arg7]; rfl
  bv := fun k => by
    show (StableHlo.after hostOps1 (W2 m ρ c) (Proc.devRef .tc main_v2) : S1x128.Idx → EReal) (ix2 (0 : Fin 1) k) = _
    rw [HostReads.keep1_main_v2, W2_of_ne m ρ c main_v2 (by decide)]
    show (StableHlo.after hostOps0 (W0 m ρ c) (Proc.devRef .tc main_v2) : S1x128.Idx → EReal) (ix2 (0 : Fin 1) k) = _
    rw [HostReads.after0_v2]; rfl
  selT := by
    show StableHlo.after hostOps1 (W2 m ρ c) (Proc.devRef .tc main_cst_0) = _
    rw [HostReads.keep1_main_cst_0, W2_of_ne m ρ c main_cst_0 (by decide)]
    show StableHlo.after hostOps0 (W0 m ρ c) (Proc.devRef .tc main_cst_0) = _
    rw [HostReads.after0_cst_0]; rfl
  wo := by
    show StableHlo.after hostOps1 (W2 m ρ c) (Proc.devRef .tc main_arg11) = _
    rw [HostReads.keep1_main_arg11, W2_of_ne m ρ c main_arg11 (by decide)]
    show StableHlo.after hostOps0 (W0 m ρ c) (Proc.devRef .tc main_arg11) = _
    rw [HostReads.keep0_main_arg11]; rfl
  bo := fun k => by
    show (StableHlo.after hostOps1 (W2 m ρ c) (Proc.devRef .tc main_v4) : S1x128.Idx → EReal) (ix2 (0 : Fin 1) k) = _
    rw [HostReads.keep1_main_v4, W2_of_ne m ρ c main_v4 (by decide)]
    show (StableHlo.after hostOps0 (W0 m ρ c) (Proc.devRef .tc main_v4) : S1x128.Idx → EReal) (ix2 (0 : Fin 1) k) = _
    rw [HostReads.after0_v4]; rfl

/-- The result array is the specification's kernel-side output of the arguments. -/
theorem result_eq (c : Dev nD) :
    (W4 m ρ c (Proc.devRef .tc main_v16) : S250000x128.Idx → EReal)
      = fun i => Cert.Attn.outK (argsOf m c) selLit selTLit ⟨(i 0).val, (i 0).isLt⟩ ⟨(i 1).val, (i 1).isLt⟩ := by
  refine ((W4_arr m ρ c 9).trans (Reg1.final9 (V3 m ρ) c _ _ _ _ _ (entry1 m ρ c))).trans ?_
  funext i
  rfl

end Cert.KernelIdeal.Hand

end
-- ==== Proof.RefValue.lean ====
/-
  The reference program's result, read at one entry, is the specification's output entry.

  The generated reading module gives each operation of the reference at an index from its operands at indices. Here
  those readings are chained from the inputs to the result, at indices written by their coordinates. Each dense layer
  at (e, c) is row e of its input against column c of its weights, plus the bias at c. The reshape to heads sends
  (e, h, d) to column 16 h + d of row e, and the reshape back sends column k to head k / 16, channel k % 16. The score
  sums a head's sixteen channel terms from zero and divides by four. The maximum over all edges, the one operation
  the reading module leaves unread, is a reduction over one axis whose body is commutative and associative, hence the
  fold of max over that axis's coordinates from the initial value. The exponentials of the differences, their sum over
  all edges from zero and the quotient are the softmax. Each head's weight multiplies its sixteen channels of V, and the
  last dense layer is applied.
-/
import proofs.«154555_j28295244546584_2_alg».proof.Proof.Spec
import proofs.«154555_j28295244546584_2_alg».proof.Proof.Gen.ReferenceIdeal.Read
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## Index functions of the layout operations, at coordinates -/

theorem lidx0 (e : Fin 250000) (c k : Fin 128) : lidx_main_v0 (ix2 e c) k = ix2 e k := by
  funext a; match a with | ⟨0, _⟩ => rfl | ⟨1, _⟩ => rfl
theorem ridx0 (e : Fin 250000) (c k : Fin 128) : ridx_main_v0 (ix2 e c) k = ix2 k c := by
  funext a; match a with | ⟨0, _⟩ => rfl | ⟨1, _⟩ => rfl
theorem bidx0 (e : Fin 250000) (c : Fin 128) : idx_main_v1 (idx_main_v2 (ix2 e c)) = ix1 c := by
  funext a; match a with | ⟨0, _⟩ => rfl
theorem lidx5 (e : Fin 250000) (c k : Fin 128) : lidx_main_v5 (ix2 e c) k = ix2 e k := by
  funext a; match a with | ⟨0, _⟩ => rfl | ⟨1, _⟩ => rfl
theorem ridx5 (e : Fin 250000) (c k : Fin 128) : ridx_main_v5 (ix2 e c) k = ix2 k c := by
  funext a; match a with | ⟨0, _⟩ => rfl | ⟨1, _⟩ => rfl
theorem bidx5 (e : Fin 250000) (c : Fin 128) : idx_main_v6 (idx_main_v7 (ix2 e c)) = ix1 c := by
  funext a; match a with | ⟨0, _⟩ => rfl
theorem lidx10 (e : Fin 250000) (c k : Fin 128) : lidx_main_v10 (ix2 e c) k = ix2 e k := by
  funext a; match a with | ⟨0, _⟩ => rfl | ⟨1, _⟩ => rfl
theorem ridx10 (e : Fin 250000) (c k : Fin 128) : ridx_main_v10 (ix2 e c) k = ix2 k c := by
  funext a; match a with | ⟨0, _⟩ => rfl | ⟨1, _⟩ => rfl
theorem bidx10 (e : Fin 250000) (c : Fin 128) : idx_main_v11 (idx_main_v12 (ix2 e c)) = ix1 c := by
  funext a; match a with | ⟨0, _⟩ => rfl
theorem lidx15 (e : Fin 250000) (c : Fin 128) (k : Fin 32) : lidx_main_v15 (ix2 e c) k = ix2 e k := by
  funext a; match a with | ⟨0, _⟩ => rfl | ⟨1, _⟩ => rfl
theorem ridx15 (e : Fin 250000) (c : Fin 128) (k : Fin 32) : ridx_main_v15 (ix2 e c) k = ix2 k c := by
  funext a; match a with | ⟨0, _⟩ => rfl | ⟨1, _⟩ => rfl
theorem bidx15 (e : Fin 250000) (c : Fin 128) : idx_main_v16 (idx_main_v17 (ix2 e c)) = ix1 c := by
  funext a; match a with | ⟨0, _⟩ => rfl
theorem lidx40 (e : Fin 250000) (c k : Fin 128) : lidx_main_v40 (ix2 e c) k = ix2 e k := by
  funext a; match a with | ⟨0, _⟩ => rfl | ⟨1, _⟩ => rfl
theorem ridx40 (e : Fin 250000) (c k : Fin 128) : ridx_main_v40 (ix2 e c) k = ix2 k c := by
  funext a; match a with | ⟨0, _⟩ => rfl | ⟨1, _⟩ => rfl
theorem bidx40 (e : Fin 250000) (c : Fin 128) : idx_main_v41 (idx_main_v42 (ix2 e c)) = ix1 c := by
  funext a; match a with | ⟨0, _⟩ => rfl

/-- Row e, head h, channel d of the reshaped array is row e, column 16 h + d of the flat one. -/
theorem sidx4 (e : Fin 250000) (h : Fin 8) (d : Fin 16) : idx_main_v4 (ix3 e h d) = ix2 e (Cert.Attn.chan h d) := by
  funext a; apply Fin.ext
  have he := e.isLt; have hh := h.isLt; have hd := d.isLt
  match a with
  | ⟨0, _⟩ => show ((e.val * 8 + h.val) * 16 + d.val) / 128 = e.val; omega
  | ⟨1, _⟩ => show ((e.val * 8 + h.val) * 16 + d.val) % 128 = 16 * h.val + d.val; omega
theorem sidx9 (e : Fin 250000) (h : Fin 8) (d : Fin 16) : idx_main_v9 (ix3 e h d) = ix2 e (Cert.Attn.chan h d) := sidx4 e h d
theorem sidx14 (e : Fin 250000) (h : Fin 8) (d : Fin 16) : idx_main_v14 (ix3 e h d) = ix2 e (Cert.Attn.chan h d) := sidx4 e h d
theorem sidx19 (e : Fin 250000) (h : Fin 8) (d : Fin 16) : idx_main_v19 (ix3 e h d) = ix2 e (Cert.Attn.chan h d) := sidx4 e h d

/-! ## The four dense layers -/

theorem v3_eq (x0 : (⟨S250000x128, .f32⟩ : BufTy).Contents (Elt Ideal)) (x3 : (⟨S128x128, .f32⟩ : BufTy).Contents (Elt Ideal))
    (x4 : (⟨S128, .f32⟩ : BufTy).Contents (Elt Ideal)) (e : Fin 250000) (c : Fin 128) :
    val_main_v3 (F := Ideal) x0 x3 x4 (ix2 e c) = Cert.Attn.dense x0 x3 x4 e c := by
  rw [val_main_v3_apply, val_main_v0_apply, val_main_v2_apply, val_main_v1_apply, bidx0]
  unfold Cert.Attn.dense
  rw [Ideal.addf_def]
  refine congrArg (· + x4 (ix1 c)) ?_
  exact Finset.sum_congr rfl fun k _ => by rw [lidx0, ridx0]

theorem v8_eq (x1 : (⟨S250000x128, .f32⟩ : BufTy).Contents (Elt Ideal)) (x5 : (⟨S128x128, .f32⟩ : BufTy).Contents (Elt Ideal))
    (x6 : (⟨S128, .f32⟩ : BufTy).Contents (Elt Ideal)) (e : Fin 250000) (c : Fin 128) :
    val_main_v8 (F := Ideal) x1 x5 x6 (ix2 e c) = Cert.Attn.dense x1 x5 x6 e c := by
  rw [val_main_v8_apply, val_main_v5_apply, val_main_v7_apply, val_main_v6_apply, bidx5]
  unfold Cert.Attn.dense
  rw [Ideal.addf_def]
  refine congrArg (· + x6 (ix1 c)) ?_
  exact Finset.sum_congr rfl fun k _ => by rw [lidx5, ridx5]

theorem v13_eq (x1 : (⟨S250000x128, .f32⟩ : BufTy).Contents (Elt Ideal)) (x7 : (⟨S128x128, .f32⟩ : BufTy).Contents (Elt Ideal))
    (x8 : (⟨S128, .f32⟩ : BufTy).Contents (Elt Ideal)) (e : Fin 250000) (c : Fin 128) :
    val_main_v13 (F := Ideal) x1 x7 x8 (ix2 e c) = Cert.Attn.dense x1 x7 x8 e c := by
  rw [val_main_v13_apply, val_main_v10_apply, val_main_v12_apply, val_main_v11_apply, bidx10]
  unfold Cert.Attn.dense
  rw [Ideal.addf_def]
  refine congrArg (· + x8 (ix1 c)) ?_
  exact Finset.sum_congr rfl fun k _ => by rw [lidx10, ridx10]

theorem v18_eq (x2 : (⟨S250000x32, .f32⟩ : BufTy).Contents (Elt Ideal)) (x9 : (⟨S32x128, .f32⟩ : BufTy).Contents (Elt Ideal))
    (x10 : (⟨S128, .f32⟩ : BufTy).Contents (Elt Ideal)) (e : Fin 250000) (c : Fin 128) :
    val_main_v18 (F := Ideal) x2 x9 x10 (ix2 e c) = Cert.Attn.dense x2 x9 x10 e c := by
  rw [val_main_v18_apply, val_main_v15_apply, val_main_v17_apply, val_main_v16_apply, bidx15]
  unfold Cert.Attn.dense
  rw [Ideal.addf_def]
  refine congrArg (· + x10 (ix1 c)) ?_
  exact Finset.sum_congr rfl fun k _ => by rw [lidx15, ridx15]

/-! ## The score -/

/-- The product Q (K + B), at row e, head h, channel d. -/
theorem v21_eq (A : Cert.Attn.Args) (e : Fin 250000) (h : Fin 8) (d : Fin 16) :
    val_main_v21 (F := Ideal) A.xi A.xj A.ea A.wq A.bq A.wk A.bk A.we A.be (ix3 e h d) = Cert.Attn.qk A e (Cert.Attn.chan h d) := by
  rw [val_main_v21_apply, val_main_v4_apply, val_main_v20_apply, val_main_v9_apply, val_main_v19_apply,
    sidx4, sidx9, sidx19, v3_eq, v8_eq, v18_eq, Ideal.mulf_def, Ideal.addf_def]
  rfl

theorem ridx22 (e : Fin 250000) (h : Fin 8) (k : Fin 16) : idx_main_v22 (ix2 e h) k = ix3 e h k := by
  funext a; match a with | ⟨0, _⟩ => rfl | ⟨1, _⟩ => rfl | ⟨2, _⟩ => rfl

/-- The head's sixteen channel terms summed from zero, divided by four. -/
theorem v24_eq (A : Cert.Attn.Args) (e : Fin 250000) (h : Fin 8) :
    val_main_v24 (F := Ideal) A.xi A.xj A.ea A.wq A.bq A.wk A.bk A.we A.be (ix2 e h) = Cert.Attn.scoreR A e h := by
  rw [val_main_v24_apply, val_main_v22_apply, val_main_v23_apply, val_main_cst_apply, val_main_cst_0_apply,
    Ideal.hostDivf_def, Ideal.ofBits_def, Ideal.ofBits_def]
  unfold Cert.Attn.scoreR Cert.Attn.zeroW Cert.Attn.fourW
  refine congrArg (fun t => Ideal.div (Ideal.ofBits .f32 0x00000000#32 + t) (Ideal.ofBits .f32 0x40800000#32)) ?_
  exact Finset.sum_congr rfl fun d _ => by rw [ridx22, v21_eq]

/-! ## The maximum over all edges -/

theorem reduces_S250000x8_S8 : S250000x8.Reduces [0] S8 := by decide

/-- Head h with edge k put back on the reduced axis is the index (k, h). -/
theorem lift25 (hR : S250000x8.Reduces [0] S8) (h : Fin 8) (k : Fin (S250000x8.size 0)) :
    hR.lift (ix1 h) k = ix2 (⟨k.val, k.isLt⟩ : Fin 250000) h := by
  funext c; apply Fin.ext
  match c with
  | ⟨0, _⟩ => rfl
  | ⟨1, _⟩ => rfl

/-- The reduce with a maximum body over the edge axis, from minus infinity, is the fold of max over the edges. -/
theorem v25_eq (A : Cert.Attn.Args) (h : Fin 8) :
    val_main_v25 (F := Ideal) A.xi A.xj A.ea A.wq A.bq A.wk A.bk A.we A.be (ix1 h)
      = (Finset.univ : Finset (Fin 250000)).fold max Cert.Attn.negInf (fun e => Cert.Attn.scoreR A e h) := by
  have hy : ∀ e : Fin 250000, val_main_v24 (F := Ideal) A.xi A.xj A.ea A.wq A.bq A.wk A.bk A.we A.be (ix2 e h)
      = Cert.Attn.scoreR A e h := fun e => v24_eq A e h
  unfold val_main_v25
  generalize val_main_v24 (F := Ideal) A.xi A.xj A.ea A.wq A.bq A.wk A.bk A.we A.be = y at hy ⊢
  refine (Host.reduce_eq_fold_single (α := EReal) (s := S250000x8) (t := S8) (a := 0) (u := S_)
    (FloatOps.maximumf (F := Ideal) (φ := .f32)) y (val_main_cst_1 (F := Ideal))
    reducesTo_S250000x8_S8_d0 reduces_S250000x8_S8 h_S_ (ix1 h)).trans ?_
  rw [val_main_cst_1_apply, Ideal.ofBits_def]
  unfold Cert.Attn.negInf
  have hf : (y ∘ reduces_S250000x8_S8.lift (ix1 h)) = fun k : Fin 250000 => Cert.Attn.scoreR A k h :=
    funext fun k => (congrArg y (lift25 reduces_S250000x8_S8 h k)).trans (hy ⟨k.val, k.isLt⟩)
  exact congrArg (fun f => Finset.fold max (Ideal.ofBits .f32 0xFF800000#32) f (Finset.univ : Finset (Fin 250000))) hf

/-- The maximum once more against minus infinity. -/
theorem v27_eq (A : Cert.Attn.Args) (h : Fin 8) :
    val_main_v27 (F := Ideal) A.xi A.xj A.ea A.wq A.bq A.wk A.bk A.we A.be (ix1 h)
      = Cert.Attn.maxR (Cert.Attn.scoreR A) h := by
  rw [val_main_v27_apply, val_main_v26_apply, val_main_cst_2_apply, v25_eq, Ideal.maximumf_def, Ideal.ofBits_def]
  rfl

/-! ## The exponentials, their sum, the weights -/

theorem bidx29 (e : Fin 250000) (h : Fin 8) : idx_main_v28 (idx_main_v29 (ix2 e h)) = ix1 h := by
  funext a; match a with | ⟨0, _⟩ => rfl

theorem v31_eq (A : Cert.Attn.Args) (e : Fin 250000) (h : Fin 8) :
    val_main_v31 (F := Ideal) A.xi A.xj A.ea A.wq A.bq A.wk A.bk A.we A.be (ix2 e h)
      = Cert.Attn.expR (Cert.Attn.scoreR A) e h := by
  rw [val_main_v31_apply, val_main_v30_apply, val_main_v29_apply, val_main_v28_apply, bidx29, v24_eq, v27_eq,
    Ideal.hostUnary_exp_def, Ideal.subf_def]
  rfl

theorem ridx32 (h : Fin 8) (k : Fin 250000) : idx_main_v32 (ix1 h) k = ix2 k h := by
  funext a; match a with | ⟨0, _⟩ => rfl | ⟨1, _⟩ => rfl

theorem v32_eq (A : Cert.Attn.Args) (h : Fin 8) :
    val_main_v32 (F := Ideal) A.xi A.xj A.ea A.wq A.bq A.wk A.bk A.we A.be (ix1 h)
      = Cert.Attn.sumR (Cert.Attn.scoreR A) h := by
  rw [val_main_v32_apply, val_main_cst_3_apply, Ideal.ofBits_def]
  unfold Cert.Attn.sumR Cert.Attn.zeroW
  refine congrArg (fun t => Ideal.ofBits .f32 0x00000000#32 + t) ?_
  exact Finset.sum_congr rfl fun k _ => by rw [ridx32, v31_eq]

theorem bidx34 (e : Fin 250000) (h : Fin 8) : idx_main_v33 (idx_main_v34 (ix2 e h)) = ix1 h := by
  funext a; match a with | ⟨0, _⟩ => rfl

theorem v35_eq (A : Cert.Attn.Args) (e : Fin 250000) (h : Fin 8) :
    val_main_v35 (F := Ideal) A.xi A.xj A.ea A.wq A.bq A.wk A.bk A.we A.be (ix2 e h)
      = Cert.Attn.attR (Cert.Attn.scoreR A) e h := by
  rw [val_main_v35_apply, val_main_v34_apply, val_main_v33_apply, bidx34, v31_eq, v32_eq, Ideal.hostDivf_def]
  rfl

/-! ## The weighted values and the last dense layer -/

theorem bidx37 (e : Fin 250000) (h : Fin 8) (d : Fin 16) : idx_main_v36 (idx_main_v37 (ix3 e h d)) = ix2 e h := by
  funext a; match a with | ⟨0, _⟩ => rfl | ⟨1, _⟩ => rfl

theorem v38_eq (A : Cert.Attn.Args) (e : Fin 250000) (h : Fin 8) (d : Fin 16) :
    val_main_v38 (F := Ideal) A.xi A.xj A.ea A.wq A.bq A.wk A.bk A.wv A.bv A.we A.be (ix3 e h d)
      = Cert.Attn.attR (Cert.Attn.scoreR A) e h * Cert.Attn.V A e (Cert.Attn.chan h d) := by
  rw [val_main_v38_apply, val_main_v37_apply, val_main_v36_apply, bidx37, v35_eq, val_main_v14_apply, sidx14, v13_eq,
    Ideal.mulf_def]
  rfl

/-- Row e, column k of the flat array is row e, head k / 16, channel k % 16 of the reshaped one. -/
theorem sidx39 (e : Fin 250000) (k : Fin 128) :
    idx_main_v39 (ix2 e k) = ix3 e (Cert.Attn.headOf k) (⟨k.val % 16, Nat.mod_lt _ (by decide)⟩ : Fin 16) := by
  funext a; apply Fin.ext
  have he := e.isLt; have hk := k.isLt
  match a with
  | ⟨0, _⟩ => show (e.val * 128 + k.val) / 128 = e.val; omega
  | ⟨1, _⟩ => show (e.val * 128 + k.val) / 16 % 8 = k.val / 16; omega
  | ⟨2, _⟩ => show (e.val * 128 + k.val) % 16 = k.val % 16; omega

theorem chan_headOf (k : Fin 128) :
    Cert.Attn.chan (Cert.Attn.headOf k) (⟨k.val % 16, Nat.mod_lt _ (by decide)⟩ : Fin 16) = k :=
  Fin.ext (by show 16 * (k.val / 16) + k.val % 16 = k.val; omega)

theorem v39_eq (A : Cert.Attn.Args) (e : Fin 250000) (k : Fin 128) :
    val_main_v39 (F := Ideal) A.xi A.xj A.ea A.wq A.bq A.wk A.bk A.wv A.bv A.we A.be (ix2 e k)
      = Cert.Attn.attR (Cert.Attn.scoreR A) e (Cert.Attn.headOf k) * Cert.Attn.V A e k := by
  rw [val_main_v39_apply, sidx39, v38_eq, chan_headOf]

theorem v43_eq (A : Cert.Attn.Args) (e : Fin 250000) (c : Fin 128) :
    val_main_v43 (F := Ideal) A.xi A.xj A.ea A.wq A.bq A.wk A.bk A.wv A.bv A.we A.be A.wo A.bo (ix2 e c)
      = Cert.Attn.outR A e c := by
  rw [val_main_v43_apply, val_main_v40_apply, val_main_v42_apply, val_main_v41_apply, bidx40, Ideal.addf_def]
  unfold Cert.Attn.outR
  refine congrArg (· + A.bo (ix1 c)) ?_
  exact Finset.sum_congr rfl fun k _ => by rw [lidx40, ridx40, v39_eq]

/-- The reference program's result at entry (e, c) is the specification's output entry. -/
theorem ref_apply (x0 x1 : (⟨S250000x128, .f32⟩ : BufTy).Contents (Elt Ideal)) (x2 : (⟨S250000x32, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S32x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal))
    (e : Fin 250000) (c : Fin 128) :
    Cert.ReferenceIdeal.Read.val_main_v43 (F := Ideal) x0 x1 x2 x3 x4 x5 x6 x7 x8 x9 x10 x11 x12 (ValueIdx.ix2 e c)
      = Cert.Attn.outR ⟨x0, x1, x2, x3, x4, x5, x6, x7, x8, x9, x10, x11, x12⟩ e c :=
  v43_eq ⟨x0, x1, x2, x3, x4, x5, x6, x7, x8, x9, x10, x11, x12⟩ e c

end Cert.ReferenceIdeal.RefValue

end
-- ==== Proof.Algebra.lean ====
/-
  The algebra of the attention layer: the kernel's spelling of every output entry equals the reference's.

  Four facts, each on the extended reals or the reals.  The four named words are minus infinity, 0, 4 and 1/4.
  A product with the 0/1 selector keeps exactly one head's 16 channels, and a product with its transpose picks a
  channel's head, so the two scores agree: a division by 4 is a multiplication by 1/4.  With finite inputs every
  score is a real number.  On real scores the maximum of the 50 block maxima is the maximum over all edges, every
  maximum is attained and so real, and a block's sum of exponentials taken against the block's own maximum m and
  rescaled by exp(m - M) is its sum of exponentials against the overall maximum M, because
  exp(s - m) · exp(m - M) = exp(s - M); the blocks partition the edges, so the rescaled block sums add up to the
  sum over all edges.  The two attention weights are then the same quotient, and the outputs agree term by term.
-/
import proofs.«154555_j28295244546584_2_alg».proof.Proof.Spec

noncomputable section

namespace Cert.Attn

open Idealize.ShloMosaic Idealize.ShloMosaic.ValueIdx

/-! ## The four named words -/

theorem negInf_eq : negInf = ⊥ := by
  unfold negInf
  simp [Ideal.ofBits, Ideal.ieee]

theorem zeroW_eq : zeroW = 0 := by
  unfold zeroW
  exact Ideal.ofBits_zero_f32

theorem fourW_eq : fourW = ((4 : ℝ) : EReal) := by
  unfold fourW
  simp [Ideal.ofBits, Ideal.ieee, -EReal.coe_mul]; norm_num

theorem quarterW_eq : quarterW = ((1 / 4 : ℝ) : EReal) := by
  unfold quarterW
  simp [Ideal.ofBits, Ideal.ieee, -EReal.coe_mul]; norm_num

/-! ## The selector keeps one head's channels; its transpose picks a channel's head -/

theorem sum_sel (sel : Mat 128 8) (hsel : IsSel sel) (f : Fin 128 → EReal) (h : Fin 8) :
    ∑ c : Fin 128, f c * sel (ix2 c h) = ∑ d : Fin 16, f (chan h d) := by
  have h1 : ∀ c : Fin 128, f c * sel (ix2 c h) = if c.val / 16 = h.val then f c else 0 := by
    intro c; rw [hsel c h]; split_ifs <;> simp
  simp only [h1]
  rw [← Finset.sum_filter]
  refine (Finset.sum_bij (fun d _ => chan h d) ?_ ?_ ?_ ?_).symm
  · intro d _
    have := d.isLt
    simp only [Finset.mem_filter, Finset.mem_univ, true_and, chan]
    omega
  · intro d₁ _ d₂ _ heq
    have := congrArg Fin.val heq
    simp only [chan] at this
    ext; omega
  · intro c hc
    simp only [Finset.mem_filter, Finset.mem_univ, true_and] at hc
    refine ⟨⟨c.val % 16, Nat.mod_lt _ (by norm_num)⟩, Finset.mem_univ _, ?_⟩
    ext
    simp only [chan]
    omega
  · intro d _; rfl

theorem sum_selT (selT : Mat 8 128) (hselT : IsSelT selT) (g : Fin 8 → EReal) (k : Fin 128) :
    ∑ h : Fin 8, g h * selT (ix2 h k) = g (headOf k) := by
  rw [Finset.sum_eq_single (headOf k)]
  · rw [hselT (headOf k) k, if_pos (by simp [headOf]), mul_one]
  · intro h _ hne
    rw [hselT h k, if_neg, mul_zero]
    intro heq
    apply hne
    ext
    simp only [headOf]
    omega
  · intro hk; exact absurd (Finset.mem_univ _) hk

/-! ## Real values -/

/-- The value is a real number. -/
def Fin' (x : EReal) : Prop := ∃ r : ℝ, x = (r : EReal)

theorem fin_add {x y : EReal} (hx : Fin' x) (hy : Fin' y) : Fin' (x + y) := by
  obtain ⟨a, rfl⟩ := hx; obtain ⟨b, rfl⟩ := hy
  exact ⟨a + b, (EReal.coe_add a b).symm⟩

theorem fin_mul {x y : EReal} (hx : Fin' x) (hy : Fin' y) : Fin' (x * y) := by
  obtain ⟨a, rfl⟩ := hx; obtain ⟨b, rfl⟩ := hy
  exact ⟨a * b, (EReal.coe_mul a b).symm⟩

theorem fin_sum {ι : Type} (s : Finset ι) (f : ι → EReal) (hf : ∀ i ∈ s, Fin' (f i)) :
    Fin' (∑ i ∈ s, f i) := by
  classical
  induction s using Finset.induction_on with
  | empty => exact ⟨0, by simp⟩
  | insert a s ha ih =>
    rw [Finset.sum_insert ha]
    exact fin_add (hf a (Finset.mem_insert_self a s))
      (ih fun i hi => hf i (Finset.mem_insert_of_mem hi))

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

theorem fin_dense {n K : ℕ} (x : Mat n K) (w : Mat K 128) (b : Vect 128)
    (hx : IsReal x) (hw : IsReal w) (hb : IsReal b) (e : Fin n) (c : Fin 128) :
    Fin' (dense x w b e c) := by
  unfold dense
  exact fin_add (fin_sum _ _ fun j _ => fin_mul (hx _) (hw _)) (hb _)

theorem fin_qk (A : Args) (hA : A.Finite) (e : Fin 250000) (c : Fin 128) : Fin' (qk A e c) := by
  unfold qk Q K B
  exact fin_mul (fin_dense _ _ _ hA.xi hA.wq hA.bq e c)
    (fin_add (fin_dense _ _ _ hA.xj hA.wk hA.bk e c) (fin_dense _ _ _ hA.ea hA.we hA.be e c))

/-! ## Edges as (block, offset) pairs -/

/-- Every edge is edge r of block b for exactly one pair (b, r). -/
def edgeEquiv : Fin 50 × Fin 5000 ≃ Fin 250000 where
  toFun p := edge p.1 p.2
  invFun e := (⟨e.val / 5000, by have := e.isLt; omega⟩, ⟨e.val % 5000, Nat.mod_lt _ (by norm_num)⟩)
  left_inv p := by
    rcases p with ⟨b, r⟩
    have hb := b.isLt
    have hr := r.isLt
    apply Prod.ext
    · apply Fin.ext
      show (5000 * b.val + r.val) / 5000 = b.val
      omega
    · apply Fin.ext
      show (5000 * b.val + r.val) % 5000 = r.val
      omega
  right_inv e := by
    apply Fin.ext
    show 5000 * (e.val / 5000) + e.val % 5000 = e.val
    omega

/-- A sum over all edges is the sum over the blocks of the sums over each block. -/
theorem sum_edges {M : Type} [AddCommMonoid M] (F : Fin 250000 → M) :
    ∑ e : Fin 250000, F e = ∑ b : Fin 50, ∑ r : Fin 5000, F (edge b r) := by
  rw [← Equiv.sum_comp edgeEquiv F, Fintype.sum_prod_type]
  rfl

/-! ## The maximum -/

/-- A finite nonempty supremum of reals is one of them. -/
theorem fin_sup_univ {ι : Type} [Fintype ι] [Nonempty ι] (f : ι → EReal) (hf : ∀ i, Fin' (f i)) :
    Fin' (Finset.univ.sup f) := by
  obtain ⟨i, _, hi⟩ := Finset.exists_mem_eq_sup Finset.univ Finset.univ_nonempty f
  rw [hi]
  exact hf i

theorem bmax_eq_sup (s : Fin 250000 → Fin 8 → EReal) (b : Fin 50) (h : Fin 8) :
    bmax s b h = Finset.univ.sup fun r : Fin 5000 => s (edge b r) h := by
  unfold bmax
  rw [negInf_eq]
  rfl

theorem gmax_eq_sup (s : Fin 250000 → Fin 8 → EReal) (h : Fin 8) :
    gmax s h = Finset.univ.sup fun b : Fin 50 => bmax s b h := by
  unfold gmax
  rw [negInf_eq]
  rfl

theorem maxR_eq_sup (s : Fin 250000 → Fin 8 → EReal) (h : Fin 8) :
    maxR s h = Finset.univ.sup fun e : Fin 250000 => s e h := by
  unfold maxR
  rw [negInf_eq, max_bot_left]
  rfl

/-- The maximum of the block maxima is the maximum over all edges. -/
theorem gmax_eq_maxR (s : Fin 250000 → Fin 8 → EReal) (h : Fin 8) : gmax s h = maxR s h := by
  rw [gmax_eq_sup, maxR_eq_sup]
  apply le_antisymm
  · refine Finset.sup_le fun b _ => ?_
    rw [bmax_eq_sup]
    exact Finset.sup_le fun r _ => Finset.le_sup (f := fun e => s e h) (Finset.mem_univ (edge b r))
  · refine Finset.sup_le fun e _ => ?_
    obtain ⟨⟨b, r⟩, rfl⟩ := edgeEquiv.surjective e
    refine le_trans ?_ (Finset.le_sup (f := fun b => bmax s b h) (Finset.mem_univ b))
    rw [bmax_eq_sup]
    exact Finset.le_sup (f := fun r => s (edge b r) h) (Finset.mem_univ r)

theorem fin_bmax (s : Fin 250000 → Fin 8 → EReal) (hs : ∀ e h, Fin' (s e h)) (b : Fin 50) (h : Fin 8) :
    Fin' (bmax s b h) := by
  rw [bmax_eq_sup]
  exact fin_sup_univ _ fun r => hs (edge b r) h

theorem fin_gmax (s : Fin 250000 → Fin 8 → EReal) (hs : ∀ e h, Fin' (s e h)) (h : Fin 8) :
    Fin' (gmax s h) := by
  rw [gmax_eq_sup]
  exact fin_sup_univ _ fun b => fin_bmax s hs b h

/-! ## The sum of exponentials -/

/-- A block's sum of exponentials against its own maximum, rescaled to the overall maximum, is the block's
    sum of exponentials against the overall maximum: exp(s - m) · exp(m - M) = exp(s - M) on the reals. -/
theorem bsum_rescale (s : Fin 250000 → Fin 8 → EReal) (hs : ∀ e h, Fin' (s e h)) (b : Fin 50) (h : Fin 8) :
    bsum s b h * Ideal.exp (bmax s b h - gmax s h) = ∑ r : Fin 5000, Ideal.exp (s (edge b r) h - gmax s h) := by
  obtain ⟨M, hM⟩ := fin_gmax s hs h
  obtain ⟨m, hm⟩ := fin_bmax s hs b h
  choose t ht using fun r : Fin 5000 => hs (edge b r) h
  unfold bsum
  rw [hM, hm]
  simp only [ht, ← EReal.coe_sub, Ideal.exp_coe]
  rw [← coe_sum, ← EReal.coe_mul, ← coe_sum, Finset.sum_mul]
  refine congrArg _ (Finset.sum_congr rfl fun r _ => ?_)
  rw [← Real.exp_add]
  congr 1
  ring

/-- The rescaled block sums add up to the sum over all edges. -/
theorem gsum_eq_sumR (s : Fin 250000 → Fin 8 → EReal) (hs : ∀ e h, Fin' (s e h)) (h : Fin 8) :
    gsum s h = sumR s h := by
  unfold gsum sumR expR
  rw [← gmax_eq_maxR s h, sum_edges]
  congr 1
  exact Finset.sum_congr rfl fun b _ => bsum_rescale s hs b h

/-- The two attention weights agree on real scores. -/
theorem attK_eq_attR (s : Fin 250000 → Fin 8 → EReal) (hs : ∀ e h, Fin' (s e h)) (e : Fin 250000) (h : Fin 8) :
    attK s e h = attR s e h := by
  unfold attK attR expR
  rw [gsum_eq_sumR s hs h, gmax_eq_maxR s h]

/-! ## The scores -/

theorem scoreK_eq_scoreR (A : Args) (sel : Mat 128 8) (hsel : IsSel sel) (e : Fin 250000) (h : Fin 8) :
    scoreK A sel e h = scoreR A e h := by
  unfold scoreK scoreR
  rw [sum_sel sel hsel (fun c => qk A e c) h, zeroW_eq, zero_add, fourW_eq, quarterW_eq,
    Ideal.div_coe (by norm_num : (4 : ℝ) ≠ 0)]

theorem fin_scoreR (A : Args) (hA : A.Finite) (e : Fin 250000) (h : Fin 8) : Fin' (scoreR A e h) := by
  unfold scoreR
  rw [zeroW_eq, zero_add, fourW_eq, Ideal.div_coe (by norm_num : (4 : ℝ) ≠ 0)]
  exact fin_mul (fin_sum _ _ fun d _ => fin_qk A hA e (chan h d)) ⟨_, rfl⟩

/-! ## The output -/

theorem outK_eq_outR (A : Args) (hA : A.Finite) (sel : Mat 128 8) (hsel : IsSel sel) (selT : Mat 8 128)
    (hselT : IsSelT selT) (e : Fin 250000) (c : Fin 128) : outK A sel selT e c = outR A e c := by
  have hs : scoreK A sel = scoreR A := by
    funext e h
    exact scoreK_eq_scoreR A sel hsel e h
  unfold outK outR
  rw [hs]
  refine congrArg (fun x => x + A.bo (ix1 c)) (Finset.sum_congr rfl fun k _ => ?_)
  rw [sum_selT selT hselT (fun h => attK (scoreR A) e h) k,
    attK_eq_attR (scoreR A) (fun e h => fin_scoreR A hA e h)]

end Cert.Attn

end
-- ==== Proof.Finite.lean ====
/-
  The precondition, decoded: every entry of every input array is a real number.

  The precondition is the conjunction, over the thirteen input arrays x, of "every entry of |x| < +∞ is true", each
  an all-reduction by "and" of the elementwise comparison of |x| = max x (-x) against the word of +∞.  A conjunction
  that is true has every conjunct true; an all-reduction that is true has every element true; and an extended real
  whose absolute value is strictly below +∞ is neither -∞ nor +∞, hence a real number.
-/
import proofs.«154555_j28295244546584_2_alg».proof.Defs
import proofs.«154555_j28295244546584_2_alg».proof.Proof.Gen.Pre_finite_inputs
import proofs.«154555_j28295244546584_2_alg».proof.Proof.Spec
import Idealize.ShloMosaic.Lib.ReduceAll

noncomputable section

namespace Cert.KernelIdeal.Fin13

open Idealize.ShloMosaic Idealize.ShloMosaic.ValueIdx Idealize.SL.Sem

/-- An extended real whose absolute value max x (-x) is strictly below +∞ is a real number: at -∞ and at +∞ the
    maximum is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 (sign 0, exponent all ones, fraction 0) denotes +∞. -/
theorem posInf_word : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- One element of the comparison |x| < +∞ being true says that entry of x is a real number, whatever the shape. -/
theorem real_of_cmp {s : Shape} (h : (⟨0, ![]⟩ : Shape).BroadcastsInDim s ![]) (x : FVec Ideal s .f32) (i : s.Idx)
    (e : cmpf .olt (Host.absf x) (broadcastInDim s ![] h (constant (⟨0, ![]⟩ : Shape) .f32 0x7F800000#32)) i = 1#1) :
    ∃ r : ℝ, x i = (r : EReal) := by
  apply real_of_abs_lt_top
  -- the comparison at index i is that of max (x i) (-(x i)) with the broadcast word, by unfolding
  have e' : Ideal.cmp .olt (max (x i) (-(x i))) (Ideal.ofBits .f32 0x7F800000#32) = 1#1 := e
  rw [posInf_word] at e'
  unfold Ideal.cmp at e'
  rw [ofBool_eq_one] at e'
  exact of_decide_eq_true e'

/-- The scalar shape has one index. -/
instance : Subsingleton Cert.Pre_finite_inputs.S_.Idx := ⟨fun a b => funext fun d => d.elim0⟩

/-- An all-reduction of the comparison |x| < +∞ that came out true makes every entry of x a real number. -/
theorem real_of_all [Cert.Pre_finite_inputs.Facts] {s : Shape} {axes : List (Fin s.rank)}
    (h : Cert.Pre_finite_inputs.S_.BroadcastsInDim s ![]) (hr : s.ReducesTo axes Cert.Pre_finite_inputs.S_)
    (hu : 0 < Cert.Pre_finite_inputs.S_.numel) (x : FVec Ideal s .f32)
    (e : Host.reduce IntOp.andi (cmpf .olt (Host.absf x) (broadcastInDim s ![] h (constant Cert.Pre_finite_inputs.S_ .f32 0x7F800000#32)))
          (constantI Cert.Pre_finite_inputs.S_ 1 1#1) hr hu ix0 = 1#1) :
    ∀ i : s.Idx, ∃ r : ℝ, x i = (r : EReal) :=
  fun i => real_of_cmp h x i (Host.reduce_andi_all _ _ hr hu ix0 e i)

/-- The certificate's precondition makes every input array of the kernel real-valued. -/
theorem finite_of_pre [Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Attn.Args.Finite ⟨m ((c.tc : Thread Cert.KernelIdeal.nD Cert.KernelIdeal.τ).loc Cert.KernelIdeal.main_arg0),
      m ((c.tc : Thread Cert.KernelIdeal.nD Cert.KernelIdeal.τ).loc Cert.KernelIdeal.main_arg1),
      m ((c.tc : Thread Cert.KernelIdeal.nD Cert.KernelIdeal.τ).loc Cert.KernelIdeal.main_arg2),
      m ((c.tc : Thread Cert.KernelIdeal.nD Cert.KernelIdeal.τ).loc Cert.KernelIdeal.main_arg3),
      m ((c.tc : Thread Cert.KernelIdeal.nD Cert.KernelIdeal.τ).loc Cert.KernelIdeal.main_arg4),
      m ((c.tc : Thread Cert.KernelIdeal.nD Cert.KernelIdeal.τ).loc Cert.KernelIdeal.main_arg5),
      m ((c.tc : Thread Cert.KernelIdeal.nD Cert.KernelIdeal.τ).loc Cert.KernelIdeal.main_arg6),
      m ((c.tc : Thread Cert.KernelIdeal.nD Cert.KernelIdeal.τ).loc Cert.KernelIdeal.main_arg7),
      m ((c.tc : Thread Cert.KernelIdeal.nD Cert.KernelIdeal.τ).loc Cert.KernelIdeal.main_arg8),
      m ((c.tc : Thread Cert.KernelIdeal.nD Cert.KernelIdeal.τ).loc Cert.KernelIdeal.main_arg9),
      m ((c.tc : Thread Cert.KernelIdeal.nD Cert.KernelIdeal.τ).loc Cert.KernelIdeal.main_arg10),
      m ((c.tc : Thread Cert.KernelIdeal.nD Cert.KernelIdeal.τ).loc Cert.KernelIdeal.main_arg11),
      m ((c.tc : Thread Cert.KernelIdeal.nD Cert.KernelIdeal.τ).loc Cert.KernelIdeal.main_arg12)⟩ := by
  -- the precondition at the scalar result's one index
  have e := congrFun (hpre c) ix0
  -- the printed chain, part by part
  dsimp only [Cert.Pre_finite_inputs.fn] at e
  dsimp only [Cert.Pre_finite_inputs.fn_part1] at e
  dsimp only [Cert.Pre_finite_inputs.fn_part2] at e
  dsimp only [Cert.Pre_finite_inputs.fn_part3] at e
  -- a conjunction of one-bit words that is 1 has every conjunct 1
  simp only [andi, IntOp.andi_eq_one] at e
  obtain ⟨⟨⟨⟨⟨⟨⟨⟨⟨⟨⟨⟨h0, h1⟩, h2⟩, h3⟩, h4⟩, h5⟩, h6⟩, h7⟩, h8⟩, h9⟩, h10⟩, h11⟩, h12⟩ := e
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7,
    real_of_all _ _ _ _ h8, real_of_all _ _ _ _ h9, real_of_all _ _ _ _ h10, real_of_all _ _ _ _ h11,
    real_of_all _ _ _ _ h12⟩

/-- The same of the reference's memory under the reference's precondition. -/
theorem finite_of_pre_ref [Cert.Pre_finite_inputs.Facts] (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    Cert.Attn.Args.Finite ⟨m ((c.tc : Thread Cert.ReferenceIdeal.nD Cert.ReferenceIdeal.τ).loc Cert.ReferenceIdeal.main_arg0),
      m ((c.tc : Thread Cert.ReferenceIdeal.nD Cert.ReferenceIdeal.τ).loc Cert.ReferenceIdeal.main_arg1),
      m ((c.tc : Thread Cert.ReferenceIdeal.nD Cert.ReferenceIdeal.τ).loc Cert.ReferenceIdeal.main_arg2),
      m ((c.tc : Thread Cert.ReferenceIdeal.nD Cert.ReferenceIdeal.τ).loc Cert.ReferenceIdeal.main_arg3),
      m ((c.tc : Thread Cert.ReferenceIdeal.nD Cert.ReferenceIdeal.τ).loc Cert.ReferenceIdeal.main_arg4),
      m ((c.tc : Thread Cert.ReferenceIdeal.nD Cert.ReferenceIdeal.τ).loc Cert.ReferenceIdeal.main_arg5),
      m ((c.tc : Thread Cert.ReferenceIdeal.nD Cert.ReferenceIdeal.τ).loc Cert.ReferenceIdeal.main_arg6),
      m ((c.tc : Thread Cert.ReferenceIdeal.nD Cert.ReferenceIdeal.τ).loc Cert.ReferenceIdeal.main_arg7),
      m ((c.tc : Thread Cert.ReferenceIdeal.nD Cert.ReferenceIdeal.τ).loc Cert.ReferenceIdeal.main_arg8),
      m ((c.tc : Thread Cert.ReferenceIdeal.nD Cert.ReferenceIdeal.τ).loc Cert.ReferenceIdeal.main_arg9),
      m ((c.tc : Thread Cert.ReferenceIdeal.nD Cert.ReferenceIdeal.τ).loc Cert.ReferenceIdeal.main_arg10),
      m ((c.tc : Thread Cert.ReferenceIdeal.nD Cert.ReferenceIdeal.τ).loc Cert.ReferenceIdeal.main_arg11),
      m ((c.tc : Thread Cert.ReferenceIdeal.nD Cert.ReferenceIdeal.τ).loc Cert.ReferenceIdeal.main_arg12)⟩ := by
  -- the precondition at the scalar result's one index
  have e := congrFun (hpre c) ix0
  -- the printed chain, part by part
  dsimp only [Cert.Pre_finite_inputs.fn] at e
  dsimp only [Cert.Pre_finite_inputs.fn_part1] at e
  dsimp only [Cert.Pre_finite_inputs.fn_part2] at e
  dsimp only [Cert.Pre_finite_inputs.fn_part3] at e
  -- a conjunction of one-bit words that is 1 has every conjunct 1
  simp only [andi, IntOp.andi_eq_one] at e
  obtain ⟨⟨⟨⟨⟨⟨⟨⟨⟨⟨⟨⟨h0, h1⟩, h2⟩, h3⟩, h4⟩, h5⟩, h6⟩, h7⟩, h8⟩, h9⟩, h10⟩, h11⟩, h12⟩ := e
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7,
    real_of_all _ _ _ _ h8, real_of_all _ _ _ _ h9, real_of_all _ _ _ _ h10, real_of_all _ _ _ _ h11,
    real_of_all _ _ _ _ h12⟩

end Cert.KernelIdeal.Fin13

end
-- ==== Proof.Selectors.lean ====
/-
  The kernel's two literal tables are the 0/1 selector matrices.

  The first table, 128 rows of 8, holds the word of 1.0 at row c, column h exactly when channel c belongs to head h
  (c / 16 = h) and the word of 0.0 elsewhere; the second, 8 rows of 128, is its transpose.  Both are stored row-major,
  so entry (c, h) of the first sits at position 8 c + h and entry (h, k) of the second at position 128 h + k; the
  1024 positions of each table are checked one by one against that closed form, and the two words denote the
  extended reals 1 and 0.
-/
import proofs.«154555_j28295244546584_2_alg».proof.KernelIdeal
import proofs.«154555_j28295244546584_2_alg».proof.Proof.Gen.KernelIdeal
import proofs.«154555_j28295244546584_2_alg».proof.Proof.Spec
import Idealize.ShloMosaic.Lib.ValueIdx

noncomputable section

namespace Cert.KernelIdeal.Sel

open Idealize.ShloMosaic Idealize.ShloMosaic.ValueIdx

/-- The word 0x3F800000 (exponent 127, fraction 0) denotes 1. -/
theorem ofBits_one : Ideal.ofBits .f32 0x3F800000#32 = 1 := by
  simp [Ideal.ofBits, Ideal.ieee, -EReal.coe_mul]; norm_num

/-- The all-zero word denotes 0. -/
theorem ofBits_zero : Ideal.ofBits .f32 0x00000000#32 = 0 := by
  simp [Ideal.ofBits, Ideal.ieee]

/-- The first table in closed form: position i = 8 c + h holds the word of 1 exactly when c / 16 = h. -/
theorem lit0_eq : ∀ i : Fin 1024,
    Cert.KernelIdeal.lit0 i = if i.val / 8 / 16 = i.val % 8 then 0x3F800000#32 else 0x00000000#32 := by
  decide +kernel

/-- The second table in closed form: position i = 128 h + k holds the word of 1 exactly when k / 16 = h. -/
theorem lit1_eq : ∀ i : Fin 1024,
    Cert.KernelIdeal.lit1 i = if i.val % 128 / 16 = i.val / 128 then 0x3F800000#32 else 0x00000000#32 := by
  decide +kernel

/-- The first table read at the position of entry (c, h), as an extended real. -/
theorem lit0_at (i : Fin 1024) (c h : ℕ) (hh : h < 8) (hi : i.val = c * 8 + h) :
    Ideal.ofBits .f32 (Cert.KernelIdeal.lit0 i) = if c / 16 = h then 1 else 0 := by
  have h1 : (c * 8 + h) / 8 = c := by omega
  have h2 : (c * 8 + h) % 8 = h := by omega
  rw [lit0_eq, hi, h1, h2]
  split_ifs with hc
  · exact ofBits_one
  · exact ofBits_zero

/-- The second table read at the position of entry (h, k), as an extended real. -/
theorem lit1_at (i : Fin 1024) (h k : ℕ) (hk : k < 128) (hi : i.val = h * 128 + k) :
    Ideal.ofBits .f32 (Cert.KernelIdeal.lit1 i) = if k / 16 = h then 1 else 0 := by
  have h1 : (h * 128 + k) % 128 = k := by omega
  have h2 : (h * 128 + k) / 128 = h := by omega
  rw [lit1_eq, hi, h1, h2]
  split_ifs with hc
  · exact ofBits_one
  · exact ofBits_zero

/-- The first table is the selector: 1 where channel c belongs to head h, else 0.  Entry (c, h) sits at the
    row-major position 8 c + h. -/
theorem sel_isSel : Cert.Attn.IsSel (fun i : Cert.KernelIdeal.S128x8.Idx =>
    FloatOps.ofBits (F := Ideal) .f32 (Cert.KernelIdeal.lit0 (Cert.KernelIdeal.S128x8.rowMajor i))) :=
  fun c h => lit0_at (Cert.KernelIdeal.S128x8.rowMajor (ix2 c h)) c.val h.val h.isLt (Shape.rowMajor_val_two _)

/-- The second table is the transposed selector.  Entry (h, k) sits at the row-major position 128 h + k. -/
theorem selT_isSelT : Cert.Attn.IsSelT (fun i : Cert.KernelIdeal.S8x128.Idx =>
    FloatOps.ofBits (F := Ideal) .f32 (Cert.KernelIdeal.lit1 (Cert.KernelIdeal.S8x128.rowMajor i))) :=
  fun h k => lit1_at (Cert.KernelIdeal.S8x128.rowMajor (ix2 h k)) h.val k.val k.isLt (Shape.rowMajor_val_two _)

end Cert.KernelIdeal.Sel

end
-- ==== Proof.lean ====
/-
  The certificate of a graph attention layer (250000 edges, 8 heads of width 16) against its reference.

  Both programs compute, at the ideal instance, one function of the thirteen inputs (Proof/Spec.lean).  The
  reference takes the softmax over all edges with one maximum and one sum.  The kernel takes, per block of 5000
  edges, the block's maximum and its sum of exponentials against that maximum, merges the 50 blocks by rescaling
  each block sum with exp(blockmax - max), and groups channels into heads by products with a 0/1 selector matrix.
  The two agree because a maximum of block maxima is the maximum, because exp(s - b)·exp(b - M) = exp(s - M) on the
  reals (this is where the inputs' finiteness is used: every score is then a real number), and because a product
  with the selector is the sum over a head's own channels and a division by 4 is a product with 1/4
  (Proof/Algebra.lean).  The kernel's side is read off its run (Proof/KRun.lean, Reg0, Reg1, HostReads, KValue),
  the reference's off its run (Proof/RefValue.lean); the precondition gives finiteness (Proof/Finite.lean), and
  the selector tables are decided entry by entry (Proof/Selectors.lean).
-/
import proofs.«154555_j28295244546584_2_alg».proof.Defs
import proofs.«154555_j28295244546584_2_alg».proof.Proof.Gen.Kernel
import proofs.«154555_j28295244546584_2_alg».proof.Proof.Gen.Kernel.Skeleton
import proofs.«154555_j28295244546584_2_alg».proof.Proof.Gen.Kernel.Launch
import proofs.«154555_j28295244546584_2_alg».proof.Proof.Gen.Kernel.Points
import proofs.«154555_j28295244546584_2_alg».proof.Proof.Gen.Kernel.Frame
import proofs.«154555_j28295244546584_2_alg».proof.Proof.Gen.KernelIdeal
import proofs.«154555_j28295244546584_2_alg».proof.Proof.Gen.KernelIdeal.Skeleton
import proofs.«154555_j28295244546584_2_alg».proof.Proof.Gen.KernelIdeal.Launch
import proofs.«154555_j28295244546584_2_alg».proof.Proof.Gen.KernelIdeal.Points
import proofs.«154555_j28295244546584_2_alg».proof.Proof.Gen.KernelIdeal.Frame
import proofs.«154555_j28295244546584_2_alg».proof.Proof.Gen.ReferenceIdeal
import proofs.«154555_j28295244546584_2_alg».proof.Proof.Gen.Pre_finite_inputs
import proofs.«154555_j28295244546584_2_alg».proof.Proof.Gen.ReferenceIdeal.Run
import proofs.«154555_j28295244546584_2_alg».proof.Proof.Gen.ReferenceIdeal.Read
import proofs.«154555_j28295244546584_2_alg».proof.Proof.KRun
import proofs.«154555_j28295244546584_2_alg».proof.Proof.KValue
import proofs.«154555_j28295244546584_2_alg».proof.Proof.RefValue
import proofs.«154555_j28295244546584_2_alg».proof.Proof.Algebra
import proofs.«154555_j28295244546584_2_alg».proof.Proof.Finite
import proofs.«154555_j28295244546584_2_alg».proof.Proof.Selectors
import Idealize.ShloMosaic.Adequacy
import Idealize.ShloMosaic.Init

noncomputable section

namespace Cert.Proof

open Idealize.ShloMosaic Idealize.ShloMosaic.ValueIdx Idealize.SL.Sem

/-- The kernel as printed runs and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the finite inputs both programs end with the same array: the kernel's result is the
    kernel-side spelling outK of the inputs, the reference's the spelling outR, and the two are one function. -/
theorem algebraic : Cert.algebraic_KernelIdeal_ReferenceIdeal := by
  intro m ρ m' ρ' hpre hagree
  refine ⟨fun c => Cert.KernelIdeal.Gen.W4 m ρ c (Proc.devRef .tc Cert.KernelIdeal.main_v16),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq]
  obtain ⟨e0, e1, e2, e3, e4, e5, e6, e7, e8, e9, e10, e11, e12⟩ := hagree c
  rw [e0, e1, e2, e3, e4, e5, e6, e7, e8, e9, e10, e11, e12]
  refine Eq.trans ?_ (Cert.KernelIdeal.Hand.result_eq m ρ c).symm
  funext i
  obtain ⟨e, k, rfl⟩ : ∃ (e : Fin 250000) (k : Fin 128), i = ix2 e k := ⟨i 0, i 1, eq_ix2 i⟩
  rw [Cert.ReferenceIdeal.RefValue.ref_apply]
  exact (Cert.Attn.outK_eq_outR _ (Cert.KernelIdeal.Fin13.finite_of_pre m hpre c) _ Cert.KernelIdeal.Sel.sel_isSel _
    Cert.KernelIdeal.Sel.selT_isSelT e k).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
